-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1 : Shape := ⟨2, ![256, 1]⟩
abbrev S256x128000 : Shape := ⟨2, ![256, 128000]⟩
abbrev S128000x64 : Shape := ⟨2, ![128000, 64]⟩
abbrev S_ : Shape := ⟨0, ![]⟩

class Facts : Prop where
  bcast_S_S256x128000 : S_.BroadcastsInDim S256x128000 (![] : Fin 0 → Fin S256x128000.rank)
  reducesTo_S256x128000_S_d0_1 : S256x128000.ReducesTo [0, 1] S_
  h_S_ : 0 < S_.numel
  bcast_S_S128000x64 : S_.BroadcastsInDim S128000x64 (![] : Fin 0 → Fin S128000x64.rank)
  reducesTo_S128000x64_S_d0_1 : S128000x64.ReducesTo [0, 1] S_

variable [Facts]

def fn {F : FTy → Type} [FloatOps F] (main_arg0 : IVec S256x1 32) (main_arg1 : FVec F S256x128000 .f32) (main_arg2 : FVec F S128000x64 .f32) : IVec S_ 1 :=
  let main_v0 : FVec F S256x128000 .f32 := Host.absf main_arg1
  let main_cst : FVec F S_ .f32 := constant S_ .f32 0x7F800000#32
  let main_v1 : FVec F S256x128000 .f32 := broadcastInDim S256x128000 ![] bcast_S_S256x128000 main_cst
  let main_v2 : IVec S256x128000 1 := cmpf .olt main_v0 main_v1
  let main_c : IVec S_ 1 := constantI S_ 1 1#1
  let main_v3 : IVec S_ 1 := (fun x v => Host.reduce IntOp.andi x v reducesTo_S256x128000_S_d0_1 h_S_) main_v2 main_c
  let main_v4 : FVec F S128000x64 .f32 := Host.absf main_arg2
  let main_cst_0 : FVec F S_ .f32 := constant S_ .f32 0x7F800000#32
  let main_v5 : FVec F S128000x64 .f32 := broadcastInDim S128000x64 ![] bcast_S_S128000x64 main_cst_0
  let main_v6 : IVec S128000x64 1 := cmpf .olt main_v4 main_v5
  let main_c_1 : IVec S_ 1 := constantI S_ 1 1#1
  let main_v7 : IVec S_ 1 := (fun x v => Host.reduce IntOp.andi x v reducesTo_S128000x64_S_d0_1 h_S_) main_v6 main_c_1
  let main_v8 : IVec S_ 1 := andi main_v3 main_v7
  main_v8
-- ==== Kernel.lean ====
abbrev S256x1 : Shape := ⟨2, ![256, 1]⟩
abbrev S256x128000 : Shape := ⟨2, ![256, 128000]⟩
abbrev S128000x64 : Shape := ⟨2, ![128000, 64]⟩
abbrev S256x64 : Shape := ⟨2, ![256, 64]⟩
abbrev S16x128 : Shape := ⟨2, ![16, 128]⟩
abbrev S128x5120 : Shape := ⟨2, ![128, 5120]⟩
abbrev S5120x64 : Shape := ⟨2, ![5120, 64]⟩
abbrev S128x64 : Shape := ⟨2, ![128, 64]⟩
abbrev S8x128 : Shape := ⟨2, ![8, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S_ : Shape := ⟨0, ![]⟩
abbrev S3200x64 : Shape := ⟨2, ![3200, 64]⟩
abbrev S256x3200 : Shape := ⟨2, ![256, 3200]⟩

abbrev nBuf : Space → Nat
  | .hbm => 13
  | .vmem => 24
  | .smem => 0
  | _ => 0

abbrev bufTy : (tb : Table) → Fin (tcTables nBuf tb) → BufTy
  | .hbm, ⟨0, _⟩ => ⟨S256x1, .i32⟩
  | .hbm, ⟨1, _⟩ => ⟨S256x128000, .f32⟩
  | .hbm, ⟨2, _⟩ => ⟨S128000x64, .f32⟩
  | .hbm, ⟨3, _⟩ => ⟨S256x64, .f32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S16x128, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S1x1, .f32⟩
  | .hbm, ⟨12, _⟩ => ⟨S256x128000, .f32⟩
  | .local _ .vmem, ⟨0, _⟩ => ⟨S128x5120, .f32⟩
  | .local _ .vmem, ⟨1, _⟩ => ⟨S128x5120, .f32⟩
  | .local _ .vmem, ⟨2, _⟩ => ⟨S5120x64, .f32⟩
  | .local _ .vmem, ⟨3, _⟩ => ⟨S5120x64, .f32⟩
  | .local _ .vmem, ⟨4, _⟩ => ⟨S128x64, .f32⟩
  | .local _ .vmem, ⟨5, _⟩ => ⟨S128x64, .f32⟩
  | .local _ .vmem, ⟨6, _⟩ => ⟨S8x128, .f32⟩
  | .local _ .vmem, ⟨7, _⟩ => ⟨S8x128, .f32⟩
  | .local _ .vmem, ⟨8, _⟩ => ⟨S128x64, .f32⟩
  | .local _ .vmem, ⟨9, _⟩ => ⟨S5120x64, .f32⟩
  | .local _ .vmem, ⟨10, _⟩ => ⟨S5120x64, .f32⟩
  | .local _ .vmem, ⟨11, _⟩ => ⟨S128x5120, .f32⟩
  | .local _ .vmem, ⟨12, _⟩ => ⟨S128x5120, .f32⟩
  | .local _ .vmem, ⟨13, _⟩ => ⟨S8x128, .f32⟩
  | .local _ .vmem, ⟨14, _⟩ => ⟨S8x128, .f32⟩
  | .local _ .vmem, ⟨15, _⟩ => ⟨S256x64, .f32⟩
  | .local _ .vmem, ⟨16, _⟩ => ⟨S3200x64, .f32⟩
  | .local _ .vmem, ⟨17, _⟩ => ⟨S3200x64, .f32⟩
  | .local _ .vmem, ⟨18, _⟩ => ⟨S256x3200, .f32⟩
  | .local _ .vmem, ⟨19, _⟩ => ⟨S256x3200, .f32⟩
  | .local _ .vmem, ⟨20, _⟩ => ⟨S1x1, .f32⟩
  | .local _ .vmem, ⟨21, _⟩ => ⟨S1x1, .f32⟩
  | .local _ .vmem, ⟨22, _⟩ => ⟨S256x3200, .f32⟩
  | .local _ .vmem, ⟨23, _⟩ => ⟨S256x3200, .f32⟩
  | _, _ => ⟨S256x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5120x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S128x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S5120x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x5120 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S256x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S3200x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x3200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x3200 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S128x64_S128x64_0_0 : ∀ a, (![0, 0] : Fin 2 → Nat) a + S128x64.size a ≤ S128x64.size a
  h_S128x64 : 0 < S128x64.numel
  inb_S8x128_S8x128_0_0 : ∀ a, (![0, 0] : Fin 2 → Nat) a + S8x128.size a ≤ S8x128.size a
  h_S8x128 : 0 < S8x128.numel
  inb_S128x5120_S128x5120_0_0 : ∀ a, (![0, 0] : Fin 2 → Nat) a + S128x5120.size a ≤ S128x5120.size a
  h_S128x5120 : 0 < S128x5120.numel
  inb_S5120x64_S5120x64_0_0 : ∀ a, (![0, 0] : Fin 2 → Nat) a + S5120x64.size a ≤ S5120x64.size a
  h_S5120x64 : 0 < S5120x64.numel
  shapeCasts_S128x64_S128x64 : S128x64.ShapeCasts S128x64
  bitsLt_bf16_f32 : FTy.bits .bf16 < FTy.bits .f32
  reduces_S128x5120_S128 : S128x5120.Reduces [1] S128
  shapeCasts_S128_S128x1 : S128.ShapeCasts S128x1
  reduces_S128x1_S1 : S128x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  reducesTo_S16x128_S_d0_1 : S16x128.ReducesTo [0, 1] S_
  h_S_ : 0 < S_.numel
  shapeCasts_S_S1x1 : S_.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S3200x64_S3200x64_0_0 : ∀ a, (![0, 0] : Fin 2 → Nat) a + S3200x64.size a ≤ S3200x64.size a
  h_S3200x64 : 0 < S3200x64.numel
  inb_S256x3200_S256x3200_0_0 : ∀ a, (![0, 0] : Fin 2 → Nat) a + S256x3200.size a ≤ S256x3200.size a
  h_S256x3200 : 0 < S256x3200.numel
  inb_S1x1_S1x1_0_0 : ∀ a, (![0, 0] : Fin 2 → Nat) a + S1x1.size a ≤ S1x1.size a
  h_S1x1 : 0 < S1x1.numel
  broadcasts_S1x1_S256x3200 : S1x1.Broadcasts S256x3200
  dot_S128x5120_S5120x64_S128x64_1_0_0_1_n_n_wf : DotDims.WF S128x5120 S5120x64 S128x64 [1] [0] [0] [1] [] []
  dot_S128x64_S5120x64_S128x5120_1_1_0_0_n_n_wf : DotDims.WF S128x64 S5120x64 S128x5120 [1] [1] [0] [0] [] []
  dot_S256x64_S3200x64_S256x3200_1_1_0_0_n_n_wf : DotDims.WF S256x64 S3200x64 S256x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x5120.size a ≤ S256x128000.size a
  hwx0_0 : ∀ i : grid0.Coords, EltTy.bits .f32 = 32 ∨ (Rect.block (s := S256x128000) S128x5120.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x64.size a ≤ S128000x64.size a
  hwx0_1 : ∀ i : grid0.Coords, EltTy.bits .f32 = 32 ∨ (Rect.block (s := S128000x64) S5120x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S256x64.size a
  hwx0_2 : ∀ i : grid0.Coords, EltTy.bits .f32 = 32 ∨ (Rect.block (s := S256x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S256x64.size a
  hwx1_0 : ∀ i : grid1.Coords, EltTy.bits .f32 = 32 ∨ (Rect.block (s := S256x64) S128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5120x64.size a ≤ S128000x64.size a
  hwx1_1 : ∀ i : grid1.Coords, EltTy.bits .f32 = 32 ∨ (Rect.block (s := S128000x64) S5120x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x5120.size a ≤ S256x128000.size a
  hwx1_2 : ∀ i : grid1.Coords, EltTy.bits .f32 = 32 ∨ (Rect.block (s := S256x128000) S128x5120.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S16x128.size a
  hwx1_3 : ∀ i : grid1.Coords, EltTy.bits .f32 = 32 ∨ (Rect.block (s := S16x128) S8x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x64.size a ≤ S256x64.size a
  hwx2_0 : ∀ i : grid2.Coords, EltTy.bits .f32 = 32 ∨ (Rect.block (s := S256x64) S256x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x64.size a ≤ S128000x64.size a
  hwx2_1 : ∀ i : grid2.Coords, EltTy.bits .f32 = 32 ∨ (Rect.block (s := S128000x64) S3200x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x3200.size a ≤ S256x128000.size a
  hwx2_2 : ∀ i : grid2.Coords, EltTy.bits .f32 = 32 ∨ (Rect.block (s := S256x128000) S256x3200.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x3200.size a ≤ S256x128000.size a
  hwx2_5 : ∀ i : grid2.Coords, EltTy.bits .f32 = 32 ∨ (Rect.block (s := S256x128000) S256x3200.size (cc2_transform_5 i) (hinb2_5 i)).WholeWords (EltTy.packing .f32)

variable [Facts₀]

def dot_S128x5120_S5120x64_S128x64_1_0_0_1_n_n : DotDims S128x5120 S5120x64 S128x64 where
  lhsContracting := [1]
  rhsContracting := [0]
  lhsNonContracting := [0]
  rhsNonContracting := [1]
  lhsBatch := []
  rhsBatch := []
  wf := dot_S128x5120_S5120x64_S128x64_1_0_0_1_n_n_wf
def dot_S128x64_S5120x64_S128x5120_1_1_0_0_n_n : DotDims S128x64 S5120x64 S128x5120 where
  lhsContracting := [1]
  rhsContracting := [1]
  lhsNonContracting := [0]
  rhsNonContracting := [0]
  lhsBatch := []
  rhsBatch := []
  wf := dot_S128x64_S5120x64_S128x5120_1_1_0_0_n_n_wf
def dot_S256x64_S3200x64_S256x3200_1_1_0_0_n_n : DotDims S256x64 S3200x64 S256x3200 where
  lhsContracting := [1]
  rhsContracting := [1]
  lhsNonContracting := [0]
  rhsNonContracting := [0]
  lhsBatch := []
  rhsBatch := []
  wf := dot_S256x64_S3200x64_S256x3200_1_1_0_0_n_n_wf

abbrev win0_0 : Pipeline.Window sig grid0 :=
  Pipeline.Window.ofSpec (Memref.whole main_arg1) S128x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5120x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S128x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5120x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x5120.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0_0) S256x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S3200x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S256x3200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S256x3200.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S256x1 : Shape := ⟨2, ![256, 1]⟩
abbrev S256x128000 : Shape := ⟨2, ![256, 128000]⟩
abbrev S128000x64 : Shape := ⟨2, ![128000, 64]⟩
abbrev S256x64 : Shape := ⟨2, ![256, 64]⟩
abbrev S64x128000 : Shape := ⟨2, ![64, 128000]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S256x1, .i32⟩
  | .hbm, ⟨1, _⟩ => ⟨S256x128000, .f32⟩
  | .hbm, ⟨2, _⟩ => ⟨S128000x64, .f32⟩
  | .hbm, ⟨3, _⟩ => ⟨S256x64, .f32⟩
  | .hbm, ⟨4, _⟩ => ⟨S64x128000, .f32⟩
  | .hbm, ⟨5, _⟩ => ⟨S256x128000, .f32⟩
  | .hbm, ⟨6, _⟩ => ⟨S256x128000, .f32⟩
  | .hbm, ⟨7, _⟩ => ⟨S256x128000, .f32⟩
  | .hbm, ⟨8, _⟩ => ⟨S_, .f32⟩
  | .hbm, ⟨9, _⟩ => ⟨S_, .f32⟩
  | .hbm, ⟨10, _⟩ => ⟨S256x128000, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S256x128000, .f32⟩
  | .hbm, ⟨17, _⟩ => ⟨S256x128000, .f32⟩
  | .hbm, ⟨18, _⟩ => ⟨S256x128000, .f32⟩
  | .hbm, ⟨19, _⟩ => ⟨S_, .f32⟩
  | .hbm, ⟨20, _⟩ => ⟨S256x128000, .f32⟩
  | .hbm, ⟨21, _⟩ => ⟨S256x128000, .f32⟩
  | .hbm, ⟨22, _⟩ => ⟨S256x128000, .f32⟩
  | _, _ => ⟨S256x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S128000x64_S64x128000_1_0 : S128000x64.Transposes [1, 0] S64x128000
  reducesTo_S256x128000_S_d0_1 : S256x128000.ReducesTo [0, 1] S_
  h_S_ : 0 < S_.numel
  bcast_S_S256x128000 : S_.BroadcastsInDim S256x128000 (![] : Fin 0 → Fin S256x128000.rank)
  dot_S256x128000_S128000x64_S256x64_1_0_0_1_n_n_wf : DotDims.WF S256x128000 S128000x64 S256x64 [1] [0] [0] [1] [] []
  dot_S256x64_S64x128000_S256x128000_1_0_0_1_n_n_wf : DotDims.WF S256x64 S64x128000 S256x128000 [1] [0] [0] [1] [] []

variable [Facts₀]

def dot_S256x128000_S128000x64_S256x64_1_0_0_1_n_n : DotDims S256x128000 S128000x64 S256x64 where
  lhsContracting := [1]
  rhsContracting := [0]
  lhsNonContracting := [0]
  rhsNonContracting := [1]
  lhsBatch := []
  rhsBatch := []
  wf := dot_S256x128000_S128000x64_S256x64_1_0_0_1_n_n_wf
def dot_S256x64_S64x128000_S256x128000_1_0_0_1_n_n : DotDims S256x64 S64x128000 S256x128000 where
  lhsContracting := [1]
  rhsContracting := [0]
  lhsNonContracting := [0]
  rhsNonContracting := [1]
  lhsBatch := []
  rhsBatch := []
  wf := dot_S256x64_S64x128000_S256x128000_1_0_0_1_n_n_wf

class Facts : Prop extends Facts₀ where

variable [Facts]
-- ==== Proof.KernelRun.lean ====
/-
  The idealized kernel's run with its RESULT named. The program is three pallas_calls among two stretches of host
  operations; the contents of every unscoped buffer at each of the six segment boundaries are a fold from the launch
  memory (the generated `Gen.W0 … Gen.W5`), and at the return every unscoped buffer holds the last boundary's
  contents. So every weakly fair execution terminates, nothing faulting, with the result array at `W5` read at the
  result's reference and the three argument arrays as launched.
-/
import proofs.«149240_j54838142435803_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and the arguments end as launched. -/
theorem run : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Result

end
-- ==== Proof.Region2.lean ====
/-
  The third pallas_call, read as values over the extended reals. Its grid is the 40 vocabulary tiles of 3200 columns;
  point t writes block (0, t) of the [256, 128000] result. With A the [256, 64] array, a and b the two [1, 1] arrays
  the region is entered with, the body forms D(r, v) = (Σ_k A(r, k) · W(v, k)) − L(r, v), the scalar
  s = a / max(b, ε) and stores D·s + c·(L − D·s), c the literal 0.4 as printed: one whole-array function.
-/
import proofs.«149240_j54838142435803_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with (any)
variable (V : (c : Dev nD) → (b : Ref sig .tc) → Buf (Elt Ideal) ((c : Thread nD τ).loc b))

theorem hz : (![0, 0] : Fin 2 → Nat) = fun _ => 0 := funext fun a => by fin_cases a <;> rfl

/-- The blend the body stores: `D·s + c·(l − D·s)`, `c` the printed literal. -/
def blend (D l s : EReal) : EReal := D * s + Ideal.ofBits .f32 0x3ECCCCCD#32 * (l - D * s)

/-- The scale: `a / max(b, ε)`, `ε` the printed literal. -/
def scale (a b : EReal) : EReal := Ideal.div a (max b (Ideal.ofBits .f32 0x34000000#32))

abbrev D2 := dot_S256x64_S3200x64_S256x3200_1_1_0_0_n_n

theorem lhs_0 (i : S256x3200.Idx) (q : D2.contr.Idx) : (D2.lhsIdx i q 0).val = (i 0).val := by
  unfold DotDims.lhsIdx
  rw [dif_neg (show ¬(0 : Fin S256x64.rank) ∈ D2.lhsBatch by decide), dif_pos (show (0 : Fin S256x64.rank) ∈ D2.lhsNonContracting by decide)]
  rfl
theorem lhs_1 (i : S256x3200.Idx) (q : D2.contr.Idx) : (D2.lhsIdx i q 1).val = (q ⟨0, by decide⟩).val :=
  D2.lhsIdx_val_of_single rfl i q
theorem rhs_0 (i : S256x3200.Idx) (q : D2.contr.Idx) : (D2.rhsIdx i q 0).val = (i 1).val := by
  unfold DotDims.rhsIdx
  rw [dif_neg (show ¬(0 : Fin S3200x64.rank) ∈ D2.rhsBatch by decide), dif_pos (show (0 : Fin S3200x64.rank) ∈ D2.rhsNonContracting by decide)]
  rfl
theorem rhs_1 (i : S256x3200.Idx) (q : D2.contr.Idx) : (D2.rhsIdx i q 1).val = (q ⟨0, by decide⟩).val :=
  D2.rhsIdx_val_of_single rfl i q

/-- The matrix product contracted over the second axis of both operands, from a zero accumulator, at (r, q):
    the sum over the 64 contracted coordinates. -/
theorem mm_apply (x0 : FVec Ideal S256x64 .bf16) (x1 : FVec Ideal S3200x64 .bf16) (r : Fin 256) (q : Fin 3200) :
    matmul D2 none x0 x1 (constant S256x3200 .f32 0x00000000#32) (ix2 r q) = ∑ k : Fin 64, x0 (ix2 r k) * x1 (ix2 q k) := by
  simp only [matmul]
  rw [Ideal.matmul_constant_zero_apply, ← Equiv.sum_comp (contrEquiv1 D2 64 rfl rfl).symm]
  refine Finset.sum_congr rfl fun k _ => ?_
  have hk := contrEquiv1_symm_val D2 64 rfl rfl k
  have el : D2.lhsIdx (ix2 r q) ((contrEquiv1 D2 64 rfl rfl).symm k) = ix2 r k := funext fun a => Fin.ext (by
    match a with
    | ⟨0, _⟩ => exact lhs_0 _ _
    | ⟨1, _⟩ => exact (lhs_1 _ _).trans hk)
  have er : D2.rhsIdx (ix2 r q) ((contrEquiv1 D2 64 rfl rfl).symm k) = ix2 q k := funext fun a => Fin.ext (by
    match a with
    | ⟨0, _⟩ => exact rhs_0 _ _
    | ⟨1, _⟩ => exact (rhs_1 _ _).trans hk)
  rw [el, er]

/-- The stored value at (r, q) of the block. -/
theorem pay_apply (x0 : Vec Ideal S256x64 .f32) (x1 : Vec Ideal S3200x64 .f32) (x2 : Vec Ideal S256x3200 .f32)
    (x3 x4 : Vec Ideal S1x1 .f32) (r : Fin 256) (q : Fin 3200) :
    k2_pay1 x0 x1 x2 x3 x4 (ix2 r q)
      = blend ((∑ k : Fin 64, x0 (ix2 r k) * x1 (ix2 q k)) - x2 (ix2 r q)) (x2 (ix2 r q)) (scale (x3 (ix2 0 0)) (x4 (ix2 0 0))) := by
  have hmm : matmul (F := Ideal) D2 none (truncf .bf16 (shapeCast S256x64 x0 shapeCasts_S256x64_S256x64) bitsLt_bf16_f32) (truncf .bf16 x1 bitsLt_bf16_f32) (constant S256x3200 .f32 0x00000000#32) (ix2 r q) = ∑ k : Fin 64, x0 (ix2 r k) * x1 (ix2 q k) := by
    rw [mm_apply, shapeCast_self]; rfl
  have hbc : broadcastTo S256x3200 (divf (F := Ideal) (shapeCast S1x1 x3 shapeCasts_S1x1_S1x1) (maximumf (shapeCast S1x1 x4 shapeCasts_S1x1_S1x1) (broadcast S1x1 (Scalar.ofBits (F := Ideal) .f32 0x34000000#32)))) broadcasts_S1x1_S256x3200 (ix2 r q) = scale (x3 (ix2 0 0)) (x4 (ix2 0 0)) := by
    rw [broadcastTo_apply _ broadcasts_S1x1_S256x3200 (ix2 r q) (ix2 (0 : Fin 1) (0 : Fin 1)) (fun a => by
      match a with
      | ⟨0, _⟩ => rfl
      | ⟨1, _⟩ => rfl)]
    rw [shapeCast_self, shapeCast_self]
    rfl
  unfold k2_pay1 blend
  show (matmul (F := Ideal) D2 none (truncf .bf16 (shapeCast S256x64 x0 shapeCasts_S256x64_S256x64) bitsLt_bf16_f32) (truncf .bf16 x1 bitsLt_bf16_f32) (constant S256x3200 .f32 0x00000000#32) (ix2 r q) - x2 (ix2 r q)) * (broadcastTo S256x3200 (divf (F := Ideal) (shapeCast S1x1 x3 shapeCasts_S1x1_S1x1) (maximumf (shapeCast S1x1 x4 shapeCasts_S1x1_S1x1) (broadcast S1x1 (Scalar.ofBits (F := Ideal) .f32 0x34000000#32)))) broadcasts_S1x1_S256x3200 (ix2 r q))
      + Ideal.ofBits .f32 0x3ECCCCCD#32 * (x2 (ix2 r q) - (matmul (F := Ideal) D2 none (truncf .bf16 (shapeCast S256x64 x0 shapeCasts_S256x64_S256x64) bitsLt_bf16_f32) (truncf .bf16 x1 bitsLt_bf16_f32) (constant S256x3200 .f32 0x00000000#32) (ix2 r q) - x2 (ix2 r q)) * (broadcastTo S256x3200 (divf (F := Ideal) (shapeCast S1x1 x3 shapeCasts_S1x1_S1x1) (maximumf (shapeCast S1x1 x4 shapeCasts_S1x1_S1x1) (broadcast S1x1 (Scalar.ofBits (F := Ideal) .f32 0x34000000#32)))) broadcasts_S1x1_S256x3200 (ix2 r q))) = _
  rw [hmm, hbc]

/-! ## The blocks, read where the arrays say -/

/-- The printed index maps over the 40 points: window 1 (rows of the second array) and windows 2, 5 (columns of the
    first array and of the result) move with the tile, the others stay. -/
theorem idx_facts : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = t.val :=
  (by decide +kernel : ∀ t : Fin grid2.N, _)

theorem blk0 (c : Dev nD) (A : FVec Ideal S256x64 .f32) (hA : V c main_v0_0 = A) (t : Fin cfg2.N) (r : Fin 256) (k : Fin 64) :
    (iblk2 V c 0 t : Vec Ideal S256x64 .f32) (ix2 r k) = A (ix2 r k) := by
  obtain ⟨e0, e1, -⟩ := idx_facts t
  unfold iblk2
  rw [View.read_apply]
  show V c main_v0_0 _ = _
  rw [hA]
  refine congrArg A (funext fun a => Fin.ext ?_)
  match a with
  | ⟨0, _⟩ => show win2_0.index t (0 : Fin 2) * 256 + 1 * r.val = r.val; rw [e0]; omega
  | ⟨1, _⟩ => show win2_0.index t (1 : Fin 2) * 64 + 1 * k.val = k.val; rw [e1]; omega

theorem blk1 (c : Dev nD) (W : FVec Ideal S128000x64 .f32) (hW : V c main_arg2 = W) (t : Fin cfg2.N) (q : Fin 3200) (k : Fin 64)
    (h : 3200 * t.val + q.val < 128000) :
    (iblk2 V c 1 t : Vec Ideal S3200x64 .f32) (ix2 q k) = W (ix2 ⟨3200 * t.val + q.val, h⟩ k) := by
  obtain ⟨-, -, e0, e1, -⟩ := idx_facts t
  unfold iblk2
  rw [View.read_apply]
  show V c main_arg2 _ = _
  rw [hW]
  refine congrArg W (funext fun a => Fin.ext ?_)
  match a with
  | ⟨0, _⟩ => show win2_1.index t (0 : Fin 2) * 3200 + 1 * q.val = 3200 * t.val + q.val; rw [e0]; omega
  | ⟨1, _⟩ => show win2_1.index t (1 : Fin 2) * 64 + 1 * k.val = k.val; rw [e1]; omega

theorem blk2 (c : Dev nD) (L : FVec Ideal S256x128000 .f32) (hL : V c main_arg1 = L) (t : Fin cfg2.N) (r : Fin 256) (q : Fin 3200)
    (h : 3200 * t.val + q.val < 128000) :
    (iblk2 V c 2 t : Vec Ideal S256x3200 .f32) (ix2 r q) = L (ix2 r ⟨3200 * t.val + q.val, h⟩) := by
  obtain ⟨-, -, -, -, e0, e1, -⟩ := idx_facts t
  unfold iblk2
  rw [View.read_apply]
  show V c main_arg1 _ = _
  rw [hL]
  refine congrArg L (funext fun a => Fin.ext ?_)
  match a with
  | ⟨0, _⟩ => show win2_2.index t (0 : Fin 2) * 256 + 1 * r.val = r.val; rw [e0]; omega
  | ⟨1, _⟩ => show win2_2.index t (1 : Fin 2) * 3200 + 1 * q.val = 3200 * t.val + q.val; rw [e1]; omega

theorem blk3 (c : Dev nD) (a : FVec Ideal S1x1 .f32) (ha : V c main_v4 = a) (t : Fin cfg2.N) :
    (iblk2 V c 3 t : Vec Ideal S1x1 .f32) (ix2 0 0) = a (ix2 0 0) := by
  obtain ⟨-, -, -, -, -, -, e0, e1, -⟩ := idx_facts t
  unfold iblk2
  rw [View.read_apply]
  show V c main_v4 _ = _
  rw [ha]
  refine congrArg a (funext fun x => Fin.ext ?_)
  match x with
  | ⟨0, _⟩ => show win2_3.index t (0 : Fin 2) * 1 + 1 * 0 = 0; rw [e0]
  | ⟨1, _⟩ => show win2_3.index t (1 : Fin 2) * 1 + 1 * 0 = 0; rw [e1]

theorem blk4 (c : Dev nD) (b : FVec Ideal S1x1 .f32) (hb : V c main_v5 = b) (t : Fin cfg2.N) :
    (iblk2 V c 4 t : Vec Ideal S1x1 .f32) (ix2 0 0) = b (ix2 0 0) := by
  obtain ⟨-, -, -, -, -, -, -, -, e0, e1, -⟩ := idx_facts t
  unfold iblk2
  rw [View.read_apply]
  show V c main_v5 _ = _
  rw [hb]
  refine congrArg b (funext fun x => Fin.ext ?_)
  match x with
  | ⟨0, _⟩ => show win2_4.index t (0 : Fin 2) * 1 + 1 * 0 = 0; rw [e0]
  | ⟨1, _⟩ => show win2_4.index t (1 : Fin 2) * 1 + 1 * 0 = 0; rw [e1]

/-! ## The result array -/

/-- The result as ONE function of the arrays the region is entered with. -/
def G (L : FVec Ideal S256x128000 .f32) (W : FVec Ideal S128000x64 .f32) (A : FVec Ideal S256x64 .f32)
    (a b : FVec Ideal S1x1 .f32) : FVec Ideal S256x128000 .f32 := fun i =>
  blend ((∑ k : Fin 64, A (ix2 ⟨(i 0).val, idx2_lt0 i⟩ k) * W (ix2 ⟨(i 1).val, idx2_lt1 i⟩ k)) - L i) (L i)
    (scale (a (ix2 0 0)) (b (ix2 0 0)))

/-- One stored entry, from what the blocks hold at their coordinates: the function at the entry's place in the array. -/
theorem point_eq (x0 : Vec Ideal S256x64 .f32) (x1 : Vec Ideal S3200x64 .f32) (x2 : Vec Ideal S256x3200 .f32)
    (x3 x4 : Vec Ideal S1x1 .f32) (L : FVec Ideal S256x128000 .f32) (W : FVec Ideal S128000x64 .f32) (A : FVec Ideal S256x64 .f32)
    (a b : FVec Ideal S1x1 .f32) (r : Fin 256) (q : Fin 3200) (v : Fin 128000)
    (e0 : ∀ k : Fin 64, x0 (ix2 r k) = A (ix2 r k)) (e1 : ∀ k : Fin 64, x1 (ix2 q k) = W (ix2 v k))
    (e2 : x2 (ix2 r q) = L (ix2 r v)) (e3 : x3 (ix2 0 0) = a (ix2 0 0)) (e4 : x4 (ix2 0 0) = b (ix2 0 0)) :
    k2_pay1 x0 x1 x2 x3 x4 (ix2 r q) = G L W A a b (ix2 r v) := by
  rw [pay_apply, e2, e3, e4, Finset.sum_congr rfl (fun k _ => by rw [e0 k, e1 k])]
  rfl

/-- What point `t` writes back is block (0, t) of that function. -/
theorem flushed_eq (c : Dev nD) (L : FVec Ideal S256x128000 .f32) (W : FVec Ideal S128000x64 .f32) (A : FVec Ideal S256x64 .f32)
    (a b : FVec Ideal S1x1 .f32) (hL : V c main_arg1 = L) (hW : V c main_arg2 = W) (hA : V c main_v0_0 = A)
    (ha : V c main_v4 = a) (hb : V c main_v5 = b) (t : Fin cfg2.N) :
    (dat2 V c).flushed 5 t = ((cfg2.win 5).blk t).view.read (Elt Ideal) (G L W A a b) := by
  have hN : t.val < 40 := lt_of_lt_of_eq t.isLt (show cfg2.N = 40 from N_2)
  show (cfg2.win 5).cut (grid2.coords t) ((dat2 V c).after 5 t) = _
  rw [after2_5]
  unfold out2_5
  rw [View.canon_unit_zero hz]
  simp only [View.ld_unit_zero (S := S256x64) hz, View.ld_unit_zero (S := S3200x64) hz, View.ld_unit_zero (S := S256x3200) hz,
    View.ld_unit_zero (S := S1x1) hz]
  funext j
  obtain ⟨r, q, rfl⟩ : ∃ (r : Fin 256) (q : Fin 3200), j = ix2 r q := ⟨j 0, j 1, eq_ix2 j⟩
  have h : 3200 * t.val + q.val < 128000 := by have := q.isLt; omega
  obtain ⟨-, -, -, -, -, -, -, -, -, -, e50, e51⟩ := idx_facts t
  rw [View.read_apply]
  show k2_pay1 (iblk2 V c 0 t) (iblk2 V c 1 t) (iblk2 V c 2 t) (iblk2 V c 3 t) (iblk2 V c 4 t) (ix2 r q) = G L W A a b _
  have hemb : ((View.whole main_v6).slice ((win2 5).rect t)).emb (ix2 r q) = ix2 r ⟨3200 * t.val + q.val, h⟩ :=
    funext fun x => Fin.ext (by
      match x with
      | ⟨0, _⟩ => show win2_5.index t (0 : Fin 2) * 256 + 1 * r.val = r.val; rw [e50]; omega
      | ⟨1, _⟩ => show win2_5.index t (1 : Fin 2) * 3200 + 1 * q.val = 3200 * t.val + q.val; rw [e51]; omega)
  rw [hemb]
  exact point_eq (iblk2 V c 0 t) (iblk2 V c 1 t) (iblk2 V c 2 t) (iblk2 V c 3 t) (iblk2 V c 4 t) L W A a b r q
    ⟨3200 * t.val + q.val, h⟩ (fun k => blk0 V c A hA t r k) (fun k => blk1 V c W hW t q k h) (blk2 V c L hL t r q h)
    (blk3 V c a ha t) (blk4 V c b hb t)

/-- An index of the result is in point `t`'s block iff each coordinate is in the block's range on its axis. -/
theorem mem_blk (t : Fin cfg2.N) (i : S256x128000.Idx) :
    i ∈ ((cfg2.win 5).blk t).view.set ↔ ∀ x : Fin 2, win2_5.index t x * S256x3200.size x ≤ (i x).val ∧ (i x).val < win2_5.index t x * S256x3200.size x + S256x3200.size x := by
  show i ∈ ((View.whole main_v6).slice (win2_5.rect t)).set ↔ _
  rw [View.set_slice_whole, Rect.mem_set_unit]
  exact Iff.rfl

/-- Column `v` of the result is in the block of tile `v / 3200`. -/
theorem cover (i : S256x128000.Idx) : ∃ t : Fin cfg2.N, (cfg2.win 5).flush t = true ∧ i ∈ ((cfg2.win 5).blk t).view.set := by
  have h0 : (i 0).val < 256 := (i 0).isLt
  have h1 : (i 1).val < 128000 := (i 1).isLt
  have hN : cfg2.N = 40 := N_2
  have ht : (i 1).val / 3200 < cfg2.N := by rw [hN]; omega
  refine ⟨⟨(i 1).val / 3200, ht⟩, flush2_5 _, ?_⟩
  rw [mem_blk]
  obtain ⟨-, -, -, -, -, -, -, -, -, -, e50, e51⟩ := idx_facts ⟨(i 1).val / 3200, ht⟩
  intro x
  match x with
  | ⟨0, _⟩ =>
    show win2_5.index ⟨(i 1).val / 3200, ht⟩ (0 : Fin 2) * 256 ≤ (i 0).val ∧ (i 0).val < win2_5.index ⟨(i 1).val / 3200, ht⟩ (0 : Fin 2) * 256 + 256
    rw [e50]; omega
  | ⟨1, _⟩ =>
    show win2_5.index ⟨(i 1).val / 3200, ht⟩ (1 : Fin 2) * 3200 ≤ (i 1).val ∧ (i 1).val < win2_5.index ⟨(i 1).val / 3200, ht⟩ (1 : Fin 2) * 3200 + 3200
    rw [e51]; dsimp only; omega

/-- The result array after the region is that function. -/
theorem final (c : Dev nD) (L : FVec Ideal S256x128000 .f32) (W : FVec Ideal S128000x64 .f32) (A : FVec Ideal S256x64 .f32)
    (a b : FVec Ideal S1x1 .f32) (hL : V c main_arg1 = L) (hW : V c main_arg2 = W) (hA : V c main_v0_0 = A)
    (ha : V c main_v4 = a) (hb : V c main_v5 = b) :
    (dat2 V c).arrAt 5 cfg2.N = G L W A a b :=
  (dat2 V c).arrAt_eq_of_cover 5 (G L W A a b) (fun t _ => flushed_eq V c L W A a b hL hW hA ha hb t) cover

end Cert.KernelIdeal.Region2

end
-- ==== Proof.RefSide.lean ====
/-
  The reference, read at an index over the extended reals. With P = (L·W)·Wᵀ the reference's difference is
  D(r, v) = (Σ_k (L·W)(r, k) · W(v, k)) − L(r, v), and its result is D·s + c·(L − D·s) with
  s = max|L| / max(max|D|, ε): the same blend and scale as the kernel's last pallas_call, once the [256, 64]
  product is known to be the sum over the 128000 columns.
-/
import proofs.«149240_j54838142435803_2_alg».proof.Proof.Gen.ReferenceIdeal.Read
import Idealize.ShloMosaic.Lib.ValueIdx

noncomputable section

namespace Cert.ReferenceIdeal.RefSide

open Cert.ReferenceIdeal Cert.ReferenceIdeal.Read Idealize.ShloMosaic Idealize.ShloMosaic.ValueIdx

variable (L : FVec Ideal S256x128000 .f32) (W : FVec Ideal S128000x64 .f32)

/-- The first product at (r, k): the sum over the 128000 columns. -/
theorem v0_apply (r : Fin 256) (k : Fin 64) :
    val_main_v0 (F := Ideal) L W (ix2 r k) = ∑ v : Fin 128000, L (ix2 r v) * W (ix2 v k) := by
  rw [val_main_v0_apply]
  refine Finset.sum_congr rfl fun v _ => ?_
  have e1 : lidx_main_v0 (ix2 r k) v = ix2 r v := funext fun a => by
    match a with
    | ⟨0, _⟩ => rfl
    | ⟨1, _⟩ => rfl
  have e2 : ridx_main_v0 (ix2 r k) v = ix2 v k := funext fun a => by
    match a with
    | ⟨0, _⟩ => rfl
    | ⟨1, _⟩ => rfl
  rw [e1, e2]

/-- The difference at (r, v), over any array `A` that is the first product. -/
theorem v3_apply (A : FVec Ideal S256x64 .f32)
    (hA : ∀ (r : Fin 256) (k : Fin 64), A (ix2 r k) = ∑ v : Fin 128000, L (ix2 r v) * W (ix2 v k)) (r : Fin 256) (v : Fin 128000) :
    val_main_v3 (F := Ideal) L W (ix2 r v) = (∑ k : Fin 64, A (ix2 r k) * W (ix2 v k)) - L (ix2 r v) := by
  rw [val_main_v3_apply, val_main_v2_apply]
  have hk : ∀ k : Fin 64, val_main_v0 (F := Ideal) L W (lidx_main_v2 (ix2 r v) k) * val_main_v1 (F := Ideal) W (ridx_main_v2 (ix2 r v) k)
      = A (ix2 r k) * W (ix2 v k) := fun k => by
    have e1 : lidx_main_v2 (ix2 r v) k = ix2 r k := funext fun a => by
      match a with
      | ⟨0, _⟩ => rfl
      | ⟨1, _⟩ => rfl
    have e2 : idx_main_v1 (ridx_main_v2 (ix2 r v) k) = ix2 v k := funext fun a => by
      match a with
      | ⟨0, _⟩ => rfl
      | ⟨1, _⟩ => rfl
    rw [val_main_v1_apply, e1, e2, v0_apply, hA]
  rw [Finset.sum_congr rfl (fun k _ => hk k)]
  rfl

/-- The result at an index: the blend of the difference with the scale `max|L| / max(max|D|, ε)`. -/
theorem v15_apply (i : S256x128000.Idx) :
    val_main_v15 (F := Ideal) L W i
      = val_main_v3 (F := Ideal) L W i
          * Ideal.div (val_main_v5 (F := Ideal) L ix0) (max (val_main_v7 (F := Ideal) L W ix0) (Ideal.ofBits .f32 0x34000000#32))
        + Ideal.ofBits .f32 0x3ECCCCCD#32
          * (L i - val_main_v3 (F := Ideal) L W i
              * Ideal.div (val_main_v5 (F := Ideal) L ix0) (max (val_main_v7 (F := Ideal) L W ix0) (Ideal.ofBits .f32 0x34000000#32))) := by
  rw [val_main_v15_apply, val_main_v14_apply, val_main_v13_apply, val_main_cst_2_apply, val_main_v12_apply, val_main_v11_apply,
    val_main_v10_apply, val_main_v9_apply, val_main_v8_apply, val_main_cst_1_apply]
  rfl

end Cert.ReferenceIdeal.RefSide

end
-- ==== Proof.HostMax.lean ====
/-
  A host maximum-reduction of a whole array to a scalar, from -inf, over the extended reals: it is the least upper
  bound of the entries, so it is determined by which bounds the entries have (`hostReduceMax_le_iff`), and two arrays
  with the same upper bounds reduce to the same scalar (`hostReduceMax_congr`) — whatever their shapes.
-/
import Idealize.ShloMosaic.PureOps.Ideal.Laws
import Idealize.ShloMosaic.PureOps.Reduce
import Idealize.ShloMosaic.Lib.ValueIdx

noncomputable section

namespace Cert.HostMax

open Idealize.ShloMosaic

/-- The word of -inf denotes the bottom of the extended reals. -/
theorem ofBits_neg_inf : Ideal.ofBits .f32 0xFF800000#32 = (⊥ : EReal) := by
  simp [Ideal.ofBits, Ideal.ieee]

/-- A bound of the reduction is exactly a bound of every entry. -/
theorem hostReduceMax_le_iff {s : Shape} {axes : List (Fin s.rank)} (h : s.ReducesTo axes ⟨0, ![]⟩)
    (hu : 0 < (⟨0, ![]⟩ : Shape).numel) (X : FVec Ideal s .f32) (j : (⟨0, ![]⟩ : Shape).Idx) (z : EReal) :
    Host.reduce (FloatOps.maximumf (F := Ideal) (φ := .f32)) X (constant (F := Ideal) ⟨0, ![]⟩ .f32 0xFF800000#32) h hu j ≤ z
      ↔ ∀ i, X i ≤ z := by
  rw [Host.reduce_eq_fold]
  have hall : (Finset.univ.filter fun i => h.drop i = j) = Finset.univ := by
    ext i
    simp only [Finset.mem_filter, Finset.mem_univ, true_and, iff_true]
    exact funext fun a => a.elim0
  rw [hall]
  show Finset.fold max (Ideal.ofBits .f32 0xFF800000#32) X Finset.univ ≤ z ↔ _
  rw [Finset.fold_max_le, ofBits_neg_inf]
  simp

/-- Arrays with the same upper bounds have the same maximum. -/
theorem hostReduceMax_congr {s s' : Shape} {axes : List (Fin s.rank)} {axes' : List (Fin s'.rank)}
    (h : s.ReducesTo axes ⟨0, ![]⟩) (h' : s'.ReducesTo axes' ⟨0, ![]⟩)
    (hu hu' : 0 < (⟨0, ![]⟩ : Shape).numel) (X : FVec Ideal s .f32) (X' : FVec Ideal s' .f32) (j j' : (⟨0, ![]⟩ : Shape).Idx)
    (hXX' : ∀ z : EReal, (∀ i, X i ≤ z) ↔ (∀ i, X' i ≤ z)) :
    Host.reduce (FloatOps.maximumf (F := Ideal) (φ := .f32)) X (constant (F := Ideal) ⟨0, ![]⟩ .f32 0xFF800000#32) h hu j
      = Host.reduce (FloatOps.maximumf (F := Ideal) (φ := .f32)) X' (constant (F := Ideal) ⟨0, ![]⟩ .f32 0xFF800000#32) h' hu' j' :=
  eq_of_forall_ge_iff fun z => by rw [hostReduceMax_le_iff, hostReduceMax_le_iff]; exact hXX' z

end Cert.HostMax

end
-- ==== Proof.Bridge.lean ====
/-
  The bridge: the idealized kernel's result array, read off the last boundary of its run, is the reference's last
  stage of the same two argument arrays. The three regions give (i) the [256, 64] product as the sum over all 128000
  columns, (ii) two [16, 128] arrays whose upper bounds are exactly those of |L| and of |D|,
  D = (L·W)·Wᵀ − L, so that the host's maxima of them are the reference's two maxima, and (iii) the blend
  D·s + c·(L − D·s) with s = max|L| / max(max|D|, ε), which is the reference's formula entry by entry.
-/
import proofs.«149240_j54838142435803_2_alg».proof.Proof.Region2
import proofs.«149240_j54838142435803_2_alg».proof.Proof.RefSide
import proofs.«149240_j54838142435803_2_alg».proof.Proof.HostMax

noncomputable section

namespace Cert.KernelIdeal.Bridge

open Cert.KernelIdeal Cert.KernelIdeal.Gen Idealize.ShloMosaic Idealize.ShloMosaic.TcCoe Idealize.SL.Sem
open Idealize.ShloMosaic.ValueIdx
open Cert.ReferenceIdeal.Read (val_main_v15 val_main_v3 val_main_v4 val_main_v5 val_main_v6 val_main_v7)

/-- Over arrays with the three regions' properties, the third region's function is the reference's last stage. -/
theorem G_eq (L : FVec Ideal S256x128000 .f32) (W : FVec Ideal S128000x64 .f32) (A : FVec Ideal S256x64 .f32)
    (M0 M1 : FVec Ideal S16x128 .f32)
    (hA : ∀ (r : Fin 256) (k : Fin 64), A (ix2 r k) = ∑ v : Fin 128000, L (ix2 r v) * W (ix2 v k))
    (h0 : ∀ z : EReal, (∀ y : S16x128.Idx, M0 y ≤ z) ↔ ∀ (r : Fin 256) (v : Fin 128000), max (L (ix2 r v)) (-(L (ix2 r v))) ≤ z)
    (h1 : ∀ z : EReal, (∀ y : S16x128.Idx, M1 y ≤ z) ↔ ∀ (r : Fin 256) (v : Fin 128000),
      max ((∑ k : Fin 64, A (ix2 r k) * W (ix2 v k)) - L (ix2 r v)) (-((∑ k : Fin 64, A (ix2 r k) * W (ix2 v k)) - L (ix2 r v))) ≤ z) :
    Region2.G L W A (shapeCast S1x1 (Host.reduce (FloatOps.maximumf (F := Ideal) (φ := .f32)) M0 (constant (F := Ideal) S_ .f32 0xFF800000#32) reducesTo_S16x128_S_d0_1 h_S_) shapeCasts_S_S1x1) (shapeCast S1x1 (Host.reduce (FloatOps.maximumf (F := Ideal) (φ := .f32)) M1 (constant (F := Ideal) S_ .f32 0xFF800000#32) reducesTo_S16x128_S_d0_1 h_S_) shapeCasts_S_S1x1)
      = val_main_v15 (F := Ideal) L W := by
  have ea : shapeCast S1x1 (Host.reduce (FloatOps.maximumf (F := Ideal) (φ := .f32)) M0 (constant (F := Ideal) S_ .f32 0xFF800000#32) reducesTo_S16x128_S_d0_1 h_S_) shapeCasts_S_S1x1 (ix2 0 0) = val_main_v5 (F := Ideal) L ix0 := by
    rw [shapeCast_apply _ shapeCasts_S_S1x1 (ix2 0 0) ix0 rfl]
    refine Cert.HostMax.hostReduceMax_congr _ _ _ _ M0 (val_main_v4 (F := Ideal) L) ix0 ix0 fun z => (h0 z).trans ⟨fun h i => ?_, fun h r v => h (ix2 r v)⟩
    obtain ⟨r, v, rfl⟩ : ∃ (r : Fin 256) (v : Fin 128000), i = ix2 r v := ⟨i 0, i 1, eq_ix2 i⟩
    exact h r v
  have eb : shapeCast S1x1 (Host.reduce (FloatOps.maximumf (F := Ideal) (φ := .f32)) M1 (constant (F := Ideal) S_ .f32 0xFF800000#32) reducesTo_S16x128_S_d0_1 h_S_) shapeCasts_S_S1x1 (ix2 0 0) = val_main_v7 (F := Ideal) L W ix0 := by
    rw [shapeCast_apply _ shapeCasts_S_S1x1 (ix2 0 0) ix0 rfl]
    refine Cert.HostMax.hostReduceMax_congr _ _ _ _ M1 (val_main_v6 (F := Ideal) L W) ix0 ix0 fun z => (h1 z).trans ⟨fun h i => ?_, fun h r v => ?_⟩
    · obtain ⟨r, v, rfl⟩ : ∃ (r : Fin 256) (v : Fin 128000), i = ix2 r v := ⟨i 0, i 1, eq_ix2 i⟩
      show max (val_main_v3 (F := Ideal) L W (ix2 r v)) (-(val_main_v3 (F := Ideal) L W (ix2 r v))) ≤ z
      rw [Cert.ReferenceIdeal.RefSide.v3_apply L W A hA r v]
      exact h r v
    · have := h (ix2 r v)
      rw [← Cert.ReferenceIdeal.RefSide.v3_apply L W A hA r v]
      exact this
  funext i
  obtain ⟨r, v, rfl⟩ : ∃ (r : Fin 256) (v : Fin 128000), i = ix2 r v := ⟨i 0, i 1, eq_ix2 i⟩
  rw [Cert.ReferenceIdeal.RefSide.v15_apply, Cert.ReferenceIdeal.RefSide.v3_apply L W A hA r v, ← ea, ← eb]
  rfl

end Cert.KernelIdeal.Bridge

end
-- ==== Proof.Fold.lean ====
/-
  The host glue between the three pallas_calls, read off the boundary contents. The second region is entered with
  the first region's two result arrays and the launch arguments; the third with the first region's [256, 64] array,
  the launch arguments, and the two [1, 1] arrays that hold the maxima, each the host's maximum-reduction from -inf
  of a [16, 128] result array of an earlier region.
-/
import proofs.«149240_j54838142435803_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- No operation of the first host stretch writes a buffer other than its two results. -/
theorem W2_of_ne (c : Dev nD) (b : Ref sig .tc) (h1 : main_cst ≠ b) (h2 : main_v1 ≠ b) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.nullary_writes, StableHlo.binary_writes, Finset.mem_singleton]
    exact ⟨StableHlo.devRef_ne_of_ne h1.symm, StableHlo.devRef_ne_of_ne h2.symm⟩))

/-- No operation of the second host stretch writes a buffer other than its four results. -/
theorem W4_of_ne (c : Dev nD) (b : Ref sig .tc) (h1 : main_cst_0 ≠ b) (h2 : main_v3 ≠ b) (h3 : main_v4 ≠ b) (h4 : main_v5 ≠ b) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.nullary_writes, StableHlo.binary_writes, StableHlo.reshape_writes, Finset.mem_singleton]
    exact ⟨StableHlo.devRef_ne_of_ne h1.symm, StableHlo.devRef_ne_of_ne h2.symm, StableHlo.devRef_ne_of_ne h3.symm, StableHlo.devRef_ne_of_ne h4.symm⟩))

/-! ## What the second region is entered with -/

theorem V2_v0_0 (c : Dev nD) : V2 m ρ c main_v0_0 = (dat0 (V0 m ρ) c).arrAt 2 cfg0.N :=
  (W2_of_ne m ρ c main_v0_0 (by decide) (by decide)).trans (W1_arr m ρ c 2)

theorem V2_arg1 (c : Dev nD) : V2 m ρ c main_arg1 = m ((c : Thread nD τ).loc main_arg1) :=
  (W2_of_ne m ρ c main_arg1 (by decide) (by decide)).trans
    ((W1_arr m ρ c 0).trans (((dat0 (V0 m ρ) c).arrAt_in 0 rfl _).trans (A_eq0 (V0 m ρ) c 0)))

theorem V2_arg2 (c : Dev nD) : V2 m ρ c main_arg2 = m ((c : Thread nD τ).loc main_arg2) :=
  (W2_of_ne m ρ c main_arg2 (by decide) (by decide)).trans
    ((W1_arr m ρ c 1).trans (((dat0 (V0 m ρ) c).arrAt_in 1 rfl _).trans (A_eq0 (V0 m ρ) c 1)))

/-! ## What the third region is entered with -/

theorem V4_v0_0 (c : Dev nD) : V4 m ρ c main_v0_0 = (dat0 (V0 m ρ) c).arrAt 2 cfg0.N :=
  (W4_of_ne m ρ c main_v0_0 (by decide) (by decide) (by decide) (by decide)).trans
    (((W3_arr m ρ c 0).trans (((dat1 (V2 m ρ) c).arrAt_in 0 rfl _).trans (A_eq1 (V2 m ρ) c 0))).trans (V2_v0_0 m ρ c))

theorem V4_arg1 (c : Dev nD) : V4 m ρ c main_arg1 = m ((c : Thread nD τ).loc main_arg1) :=
  (W4_of_ne m ρ c main_arg1 (by decide) (by decide) (by decide) (by decide)).trans
    (((W3_arr m ρ c 2).trans (((dat1 (V2 m ρ) c).arrAt_in 2 rfl _).trans (A_eq1 (V2 m ρ) c 2))).trans (V2_arg1 m ρ c))

theorem V4_arg2 (c : Dev nD) : V4 m ρ c main_arg2 = m ((c : Thread nD τ).loc main_arg2) :=
  (W4_of_ne m ρ c main_arg2 (by decide) (by decide) (by decide) (by decide)).trans
    (((W3_arr m ρ c 1).trans (((dat1 (V2 m ρ) c).arrAt_in 1 rfl _).trans (A_eq1 (V2 m ρ) c 1))).trans (V2_arg2 m ρ c))

/-- The first [1, 1] array: the host's maximum, from -inf, of the first region's [16, 128] result. -/
theorem V4_v4 (c : Dev nD) : V4 m ρ c main_v4
    = shapeCast S1x1 (Host.reduce FloatOps.maximumf ((dat0 (V0 m ρ) c).arrAt 3 cfg0.N) (constant S_ .f32 0xFF800000#32)
        reducesTo_S16x128_S_d0_1 h_S_) shapeCasts_S_S1x1 := by
  have e1 : V4 m ρ c main_v4 = shapeCast S1x1 (W3 m ρ c (Proc.devRef .tc main_v1)) shapeCasts_S_S1x1 := by
    show StableHlo.after hostOps2 (W3 m ρ c) (Proc.devRef .tc main_v4) = _
    after_results <;> rfl
  have e2 : W3 m ρ c (Proc.devRef .tc main_v1) = W2 m ρ c (Proc.devRef .tc main_v1) := W3_of_ne m ρ c main_v1 (by decide)
  have e3 : W2 m ρ c (Proc.devRef .tc main_v1)
      = Host.reduce FloatOps.maximumf (W1 m ρ c (Proc.devRef .tc main_v0_1)) (constant S_ .f32 0xFF800000#32) reducesTo_S16x128_S_d0_1 h_S_ := by
    show StableHlo.after hostOps1 (W1 m ρ c) (Proc.devRef .tc main_v1) = _
    after_results <;> rfl
  have e4 : W1 m ρ c (Proc.devRef .tc main_v0_1) = (dat0 (V0 m ρ) c).arrAt 3 cfg0.N := W1_arr m ρ c 3
  rw [e1, e2, e3, e4]

/-- The second [1, 1] array: the host's maximum, from -inf, of the second region's [16, 128] result. -/
theorem V4_v5 (c : Dev nD) : V4 m ρ c main_v5
    = shapeCast S1x1 (Host.reduce FloatOps.maximumf ((dat1 (V2 m ρ) c).arrAt 3 cfg1.N) (constant S_ .f32 0xFF800000#32)
        reducesTo_S16x128_S_d0_1 h_S_) shapeCasts_S_S1x1 := by
  have e1 : V4 m ρ c main_v5
      = shapeCast S1x1 (Host.reduce FloatOps.maximumf (W3 m ρ c (Proc.devRef .tc main_v2)) (constant S_ .f32 0xFF800000#32)
          reducesTo_S16x128_S_d0_1 h_S_) shapeCasts_S_S1x1 := by
    show StableHlo.after hostOps2 (W3 m ρ c) (Proc.devRef .tc main_v5) = _
    after_results <;> rfl
  have e4 : W3 m ρ c (Proc.devRef .tc main_v2) = (dat1 (V2 m ρ) c).arrAt 3 cfg1.N := W3_arr m ρ c 3
  rw [e1, e4]

end Cert.KernelIdeal.Fold

end
-- ==== Proof.Region0.lean ====
/-
  The first pallas_call, read as values over the extended reals. Its grid is (2, 25): point t = 25·b + i handles
  batch half b and vocabulary tile i. Output block b of the [256, 64] array accumulates, over the 25 tiles, the
  product of the [128, 5120] block (b, i) of the first array with the [5120, 64] block i of the second, from zero:
  after the last tile it holds the full contraction over the 128000 columns. Output block b of the [16, 128] array
  holds, in every entry, the running maximum from -inf of the absolute values of the blocks (b, i) seen so far.
-/
import proofs.«149240_j54838142435803_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a rank-2 whole-buffer rectangle, as a constant function. -/
theorem hz : (![0, 0] : Fin 2 → Nat) = fun _ => 0 := funext fun a => by fin_cases a <;> rfl

section Pieces
variable {F : FTy → Type} [FloatOps F]

/-- A later tile: the [128, 64] buffer holding `xo2` is left at the payload of the accumulating store over it. -/
theorem out_B_2 (c : Dev nD) (i : grid0.Coords) (a2 : Memref sig .tc .vmem S128x5120 .f32) (h2 : a2.IsWhole)
    (a3 : Memref sig .tc .vmem S5120x64 .f32) (h3 : a3.IsWhole) (a4 : Memref sig .tc .vmem S128x64 .f32) (h4 : a4.IsWhole)
    (a5 : Memref sig .tc .vmem S8x128 .f32) (h5 : a5.IsWhole) (hc : ¬cond0_0 i)
    (x0 : Vec F S128x5120 .f32) (x1 : Vec F S5120x64 .f32) (xo2 : Vec F S128x64 .f32) (xo3 : Vec F S8x128 .f32) :
    out0_B_2 c i a2 h2 a3 h3 a4 h4 a5 h5 hc x0 x1 xo2 xo3 = k0_pay3 x0 x1 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero (S := S128x64) hz]
  simp only [View.readAt_eq_ld, h2.read_unread, h3.read_unread, h4.read_unread,
    View.ld_unit_zero (S := S128x5120) hz, View.ld_unit_zero (S := S5120x64) hz, View.ld_unit_zero (S := S128x64) hz]

/-- A later tile: the [8, 128] buffer holding `xo3` is left at the payload of the maximum store over it. -/
theorem out_B_3 (c : Dev nD) (i : grid0.Coords) (a2 : Memref sig .tc .vmem S128x5120 .f32) (h2 : a2.IsWhole)
    (a3 : Memref sig .tc .vmem S5120x64 .f32) (h3 : a3.IsWhole) (a4 : Memref sig .tc .vmem S128x64 .f32) (h4 : a4.IsWhole)
    (a5 : Memref sig .tc .vmem S8x128 .f32) (h5 : a5.IsWhole) (hc : ¬cond0_0 i)
    (x0 : Vec F S128x5120 .f32) (x1 : Vec F S5120x64 .f32) (xo2 : Vec F S128x64 .f32) (xo3 : Vec F S8x128 .f32) :
    out0_B_3 c i a2 h2 a3 h3 a4 h4 a5 h5 hc x0 x1 xo2 xo3 = k0_pay4 x0 xo3 := by
  unfold out0_B_3
  rw [View.read_writes_eq_canon _ _ _ (cover0_B_3 c i a2 h2 a3 h3 a4 h4 a5 h5 hc x0 x1 xo2 xo3)]
  unfold kernelRun0_B
  dsimp only
  rw [View.canon_unit_zero (S := S8x128) hz]
  simp only [View.readAt_eq_ld, h2.read_unread, h5.read_unread,
    View.ld_unit_zero (S := S128x5120) hz, View.ld_unit_zero (S := S8x128) hz]

/-- The first tile: the [128, 64] buffer is zeroed, read back, and left at the accumulating payload over the zeros. -/
theorem out_A_2 (c : Dev nD) (i : grid0.Coords) (a2 : Memref sig .tc .vmem S128x5120 .f32) (h2 : a2.IsWhole)
    (a3 : Memref sig .tc .vmem S5120x64 .f32) (h3 : a3.IsWhole) (a4 : Memref sig .tc .vmem S128x64 .f32) (h4 : a4.IsWhole)
    (a5 : Memref sig .tc .vmem S8x128 .f32) (h5 : a5.IsWhole) (hc : cond0_0 i)
    (x0 : Vec F S128x5120 .f32) (x1 : Vec F S5120x64 .f32) :
    out0_A_2 c i a2 h2 a3 h3 a4 h4 a5 h5 hc x0 x1 = k0_pay3 x0 x1 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S128x64) hz, View.readCov_unit_zero (S := S128x64) _ hz]
  simp only [View.readAt_eq_ld, h2.read_unread, h3.read_unread,
    View.ld_unit_zero (S := S128x5120) hz, View.ld_unit_zero (S := S5120x64) hz]

/-- The first tile: the [8, 128] buffer is set to -inf, read back, and left at the maximum payload over that. -/
theorem out_A_3 (c : Dev nD) (i : grid0.Coords) (a2 : Memref sig .tc .vmem S128x5120 .f32) (h2 : a2.IsWhole)
    (a3 : Memref sig .tc .vmem S5120x64 .f32) (h3 : a3.IsWhole) (a4 : Memref sig .tc .vmem S128x64 .f32) (h4 : a4.IsWhole)
    (a5 : Memref sig .tc .vmem S8x128 .f32) (h5 : a5.IsWhole) (hc : cond0_0 i)
    (x0 : Vec F S128x5120 .f32) (x1 : Vec F S5120x64 .f32) :
    out0_A_3 c i a2 h2 a3 h3 a4 h4 a5 h5 hc x0 x1 = k0_pay4 x0 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S8x128) hz, View.readCov_unit_zero (S := S8x128) _ hz]
  simp only [View.readAt_eq_ld, h2.read_unread, View.ld_unit_zero (S := S128x5120) hz]

end Pieces

/-! ## The payloads read at an index, over the extended reals -/

/-- The word 0xFF800000 is -inf: the bottom of the extended reals. -/
theorem neg_inf : (FloatOps.ofBits .f32 0xFF800000#32 : Ideal .f32) = (⊥ : EReal) := by
  show Ideal.ofBits .f32 0xFF800000#32 = ⊥
  simp [Ideal.ofBits, Ideal.ieee]

theorem lhs_0 (i : S128x64.Idx) (q : dot_S128x5120_S5120x64_S128x64_1_0_0_1_n_n.contr.Idx) :
    (dot_S128x5120_S5120x64_S128x64_1_0_0_1_n_n.lhsIdx i q 0).val = (i 0).val := by
  unfold DotDims.lhsIdx
  rw [dif_neg (show ¬(0 : Fin S128x5120.rank) ∈ dot_S128x5120_S5120x64_S128x64_1_0_0_1_n_n.lhsBatch by decide), dif_pos (show (0 : Fin S128x5120.rank) ∈ dot_S128x5120_S5120x64_S128x64_1_0_0_1_n_n.lhsNonContracting by decide)]
  rfl
theorem lhs_1 (i : S128x64.Idx) (q : dot_S128x5120_S5120x64_S128x64_1_0_0_1_n_n.contr.Idx) :
    (dot_S128x5120_S5120x64_S128x64_1_0_0_1_n_n.lhsIdx i q 1).val = (q ⟨0, by decide⟩).val :=
  dot_S128x5120_S5120x64_S128x64_1_0_0_1_n_n.lhsIdx_val_of_single rfl i q
theorem rhs_0 (i : S128x64.Idx) (q : dot_S128x5120_S5120x64_S128x64_1_0_0_1_n_n.contr.Idx) :
    (dot_S128x5120_S5120x64_S128x64_1_0_0_1_n_n.rhsIdx i q 0).val = (q ⟨0, by decide⟩).val :=
  dot_S128x5120_S5120x64_S128x64_1_0_0_1_n_n.rhsIdx_val_of_single rfl i q
theorem rhs_1 (i : S128x64.Idx) (q : dot_S128x5120_S5120x64_S128x64_1_0_0_1_n_n.contr.Idx) :
    (dot_S128x5120_S5120x64_S128x64_1_0_0_1_n_n.rhsIdx i q 1).val = (i 1).val := by
  unfold DotDims.rhsIdx
  rw [dif_neg (show ¬(1 : Fin S5120x64.rank) ∈ dot_S128x5120_S5120x64_S128x64_1_0_0_1_n_n.rhsBatch by decide), dif_pos (show (1 : Fin S5120x64.rank) ∈ dot_S128x5120_S5120x64_S128x64_1_0_0_1_n_n.rhsNonContracting by decide)]
  rfl

/-- The accumulating payload, whatever its shape-cast and width evidence: entry (p, k) is the accumulator's plus the
    sum over the tile's 5120 columns q of l(p, q) · w(q, k) (a change of float format is the identity here). -/
theorem pay3_aux (x0 : FVec Ideal S128x5120 .f32) (x1 : FVec Ideal S5120x64 .f32) (acc : FVec Ideal S128x64 .f32)
    (hc : S128x64.ShapeCasts S128x64) (hb : EltTy.bits .bf16 < EltTy.bits .f32) (p : Fin 128) (k : Fin 64) :
    addf (shapeCast S128x64 acc hc) (matmul dot_S128x5120_S5120x64_S128x64_1_0_0_1_n_n none (truncf .bf16 x0 hb) (truncf .bf16 x1 hb) (constant S128x64 .f32 0x00000000#32)) (ix2 p k)
      = acc (ix2 p k) + ∑ q : Fin 5120, x0 (ix2 p q) * x1 (ix2 q k) := by
  rw [addf_apply, shapeCast_self]
  congr 1
  simp only [matmul]
  rw [Ideal.matmul_constant_zero_apply, ← Equiv.sum_comp (contrEquiv1 dot_S128x5120_S5120x64_S128x64_1_0_0_1_n_n 5120 rfl rfl).symm]
  refine Finset.sum_congr rfl fun q _ => ?_
  have hq := contrEquiv1_symm_val dot_S128x5120_S5120x64_S128x64_1_0_0_1_n_n 5120 rfl rfl q
  have el : dot_S128x5120_S5120x64_S128x64_1_0_0_1_n_n.lhsIdx (ix2 p k) ((contrEquiv1 dot_S128x5120_S5120x64_S128x64_1_0_0_1_n_n 5120 rfl rfl).symm q) = ix2 p q := funext fun a => Fin.ext (by
    match a with
    | ⟨0, _⟩ => exact lhs_0 _ _
    | ⟨1, _⟩ => exact (lhs_1 _ _).trans hq)
  have er : dot_S128x5120_S5120x64_S128x64_1_0_0_1_n_n.rhsIdx (ix2 p k) ((contrEquiv1 dot_S128x5120_S5120x64_S128x64_1_0_0_1_n_n 5120 rfl rfl).symm q) = ix2 q k := funext fun a => Fin.ext (by
    match a with
    | ⟨0, _⟩ => exact (rhs_0 _ _).trans hq
    | ⟨1, _⟩ => exact rhs_1 _ _)
  rw [el, er]
  rfl

theorem pay3_apply (x0 : Vec Ideal S128x5120 .f32) (x1 : Vec Ideal S5120x64 .f32) (acc : Vec Ideal S128x64 .f32)
    (p : Fin 128) (k : Fin 64) :
    k0_pay3 (F := Ideal) x0 x1 acc (ix2 p k) = acc (ix2 p k) + ∑ q : Fin 5120, x0 (ix2 p q) * x1 (ix2 q k) :=
  pay3_aux x0 x1 acc _ _ p k

/-- Inserting column q into the row index p of the [128, 5120] block gives (p, q). -/
theorem lift_row (h : S128x5120.Reduces [1] S128) (p : Fin 128) (q : Fin 5120) : h.lift (ix1 p) q = ix2 p q :=
  funext fun c => Fin.ext (by match c with | ⟨0, _⟩ => rfl | ⟨1, _⟩ => rfl)

/-- Inserting row p into the index u of the [1] result over a [128, 1] column gives (p, u). -/
theorem lift_col (h : S128x1.Reduces [0] S1) (u : Fin 1) (p : Fin 128) : h.lift (ix1 u) p = ix2 p u :=
  funext fun c => Fin.ext (by match c with | ⟨0, _⟩ => rfl | ⟨1, _⟩ => rfl)

/-- A row maximum from -inf is bounded by z exactly when every entry of the row is. -/
theorem rowmax_le (x : FVec Ideal S128x5120 .f32) (h : S128x5120.Reduces [1] S128) (hφ : FKind.Formats .f32)
    (hacc : (0xFF800000#32 : BitVec 32) = FKind.maximumf.neutral .f32 hφ) (p : Fin 128) (z : EReal) :
    multiReduction .maximumf [1] S128 x 0xFF800000#32 h hφ hacc (ix1 p) ≤ z ↔ ∀ q : Fin 5120, x (ix2 p q) ≤ z := by
  rw [Ideal.multiReduction_maximumf_single, Finset.fold_max_le, neg_inf]
  constructor
  · intro hh q
    exact (congrArg (fun i => x i ≤ z) (lift_row h p q)).mp (hh.2 q (Finset.mem_univ _))
  · intro hh
    exact ⟨bot_le, fun q _ => (congrArg (fun i => x i ≤ z) (lift_row h p q)).mpr (hh q)⟩

/-- A column maximum from -inf over a [128, 1] column is bounded by z exactly when every entry is. -/
theorem colmax_le (x : FVec Ideal S128x1 .f32) (h : S128x1.Reduces [0] S1) (hφ : FKind.Formats .f32)
    (hacc : (0xFF800000#32 : BitVec 32) = FKind.maximumf.neutral .f32 hφ) (u : Fin 1) (z : EReal) :
    multiReduction .maximumf [0] S1 x 0xFF800000#32 h hφ hacc (ix1 u) ≤ z ↔ ∀ p : Fin 128, x (ix2 p u) ≤ z := by
  rw [Ideal.multiReduction_maximumf_single, Finset.fold_max_le, neg_inf]
  constructor
  · intro hh p
    exact (congrArg (fun i => x i ≤ z) (lift_col h u p)).mp (hh.2 p (Finset.mem_univ _))
  · intro hh
    exact ⟨bot_le, fun p _ => (congrArg (fun i => x i ≤ z) (lift_col h u p)).mpr (hh p)⟩

/-- The maximum payload, whatever its shape evidence: an entry is bounded by z exactly when the accumulator's entry
    is and every |l(p, q)| of the block is (the block's maximum is broadcast to all [8, 128] entries). -/
theorem pay4_aux (x0 : FVec Ideal S128x5120 .f32) (acc : FVec Ideal S8x128 .f32)
    (h1 : S128x5120.Reduces [1] S128) (hφ1 : FKind.Formats .f32) (hacc1 : (0xFF800000#32 : BitVec 32) = FKind.maximumf.neutral .f32 hφ1)
    (c1 : S128.ShapeCasts S128x1)
    (h2 : S128x1.Reduces [0] S1) (hφ2 : FKind.Formats .f32) (hacc2 : (0xFF800000#32 : BitVec 32) = FKind.maximumf.neutral .f32 hφ2)
    (c2 : S1.ShapeCasts S1x1) (c3 : S8x128.ShapeCasts S8x128) (c4 : S1x1.ShapeCasts S1x1) (b : S1x1.Broadcasts S8x128)
    (y : S8x128.Idx) (z : EReal) :
    maximumf (shapeCast S8x128 acc c3)
        (broadcastTo S8x128 (shapeCast S1x1 (shapeCast S1x1 (multiReduction .maximumf [0] S1
          (shapeCast S128x1 (multiReduction .maximumf [1] S128 (absf x0) 0xFF800000#32 h1 hφ1 hacc1) c1)
          0xFF800000#32 h2 hφ2 hacc2) c2) c4) b) y ≤ z
      ↔ acc y ≤ z ∧ ∀ (p : Fin 128) (q : Fin 5120), max (x0 (ix2 p q)) (-(x0 (ix2 p q))) ≤ z := by
  rw [maximumf_apply, max_le_iff, shapeCast_self, shapeCast_self]
  refine and_congr Iff.rfl ?_
  rw [broadcastTo_apply _ b y (ix2 (0 : Fin 1) (0 : Fin 1)) (fun a => by match a with | ⟨0, _⟩ => rfl | ⟨1, _⟩ => rfl),
    shapeCast_apply _ c2 (ix2 (0 : Fin 1) (0 : Fin 1)) (ix1 (0 : Fin 1)) (by rw [Shape.rowMajor_val_one, Shape.rowMajor_val_two]; rfl),
    colmax_le]
  refine forall_congr' fun p => ?_
  rw [shapeCast_apply _ c1 (ix2 p (0 : Fin 1)) (ix1 p) (by rw [Shape.rowMajor_val_one, Shape.rowMajor_val_two]; show p.val = p.val * 1 + 0; omega),
    rowmax_le]
  rfl

theorem pay4_le (x0 : Vec Ideal S128x5120 .f32) (acc : Vec Ideal S8x128 .f32) (y : S8x128.Idx) (z : EReal) :
    k0_pay4 (F := Ideal) x0 acc y ≤ z ↔ acc y ≤ z ∧ ∀ (p : Fin 128) (q : Fin 5120), max (x0 (ix2 p q)) (-(x0 (ix2 p q))) ≤ z :=
  pay4_aux x0 acc _ _ _ _ _ _ _ _ _ _ _ y z

/-! ## The blocks read where the arrays say -/

/-- The block indices of the four windows at point t: (t / 25, t % 25), (t % 25, 0), (t / 25, 0), (t / 25, 0) —
    decided over the 50 points. -/
theorem idx_all : ∀ t : Fin grid0.N,
    (win0_0.index t 0 = t.val / 25 ∧ win0_0.index t 1 = t.val % 25) ∧ (win0_1.index t 0 = t.val % 25 ∧ win0_1.index t 1 = 0)
      ∧ (win0_2.index t 0 = t.val / 25 ∧ win0_2.index t 1 = 0) ∧ (win0_3.index t 0 = t.val / 25 ∧ win0_3.index t 1 = 0) := by
  decide +kernel

-- the buffer contents the region is entered with (any)
variable (V : (c : Dev nD) → (b : Ref sig .tc) → Buf (Elt Ideal) ((c : Thread nD τ).loc b))

/-- Entry (p, q) of the first window's block at point t is L at row 128 (t / 25) + p, column 5120 (t % 25) + q. -/
theorem blkL (c : Dev nD) (L : FVec Ideal S256x128000 .f32) (hL : V c main_arg1 = L) (t : Fin cfg0.N) (p : Fin 128) (q : Fin 5120)
    (r : Fin 256) (v : Fin 128000) (hr : r.val = 128 * (t.val / 25) + p.val) (hv : v.val = 5120 * (t.val % 25) + q.val) :
    (iblk0 V c 0 t : Vec Ideal S128x5120 .f32) (ix2 p q) = L (ix2 r v) := by
  subst hL
  unfold iblk0
  rw [View.read_apply]
  show V c main_arg1 _ = V c main_arg1 _
  congr 1
  funext a
  apply Fin.ext
  match a with
  | ⟨0, _⟩ => show win0_0.index t 0 * 128 + 1 * p.val = r.val; rw [(idx_all t).1.1, hr]; omega
  | ⟨1, _⟩ => show win0_0.index t 1 * 5120 + 1 * q.val = v.val; rw [(idx_all t).1.2, hv]; omega

/-- Entry (q, k) of the second window's block at point t is W at row 5120 (t % 25) + q, column k. -/
theorem blkW (c : Dev nD) (W : FVec Ideal S128000x64 .f32) (hW : V c main_arg2 = W) (t : Fin cfg0.N) (q : Fin 5120) (k : Fin 64)
    (v : Fin 128000) (hv : v.val = 5120 * (t.val % 25) + q.val) :
    (iblk0 V c 1 t : Vec Ideal S5120x64 .f32) (ix2 q k) = W (ix2 v k) := by
  subst hW
  unfold iblk0
  rw [View.read_apply]
  show V c main_arg2 _ = V c main_arg2 _
  congr 1
  funext a
  apply Fin.ext
  match a with
  | ⟨0, _⟩ => show win0_1.index t 0 * 5120 + 1 * q.val = v.val; rw [(idx_all t).2.1.1, hv]; omega
  | ⟨1, _⟩ => show win0_1.index t 1 * 64 + 1 * k.val = k.val; rw [(idx_all t).2.1.2]; omega

/-! ## Tiles of a long sum -/

/-- A sum over m · n consecutive positions is the sum over the m tiles of n positions each. -/
theorem sum_tiles {β : Type*} [AddCommMonoid β] (m n : ℕ) (f : Fin (m * n) → β) (hb : ∀ (s : Fin m) (q : Fin n), n * s.val + q.val < m * n) :
    ∑ s : Fin m, ∑ q : Fin n, f ⟨n * s.val + q.val, hb s q⟩ = ∑ v : Fin (m * n), f v := by
  rw [← Equiv.sum_comp finProdFinEquiv f, Fintype.sum_prod_type]
  refine Finset.sum_congr rfl fun s _ => Finset.sum_congr rfl fun q _ => congrArg f (Fin.ext ?_)
  show n * s.val + q.val = q.val + n * s.val
  omega

/-- The 128000 columns are 25 tiles of 5120. -/
theorem sum_tiles_vocab {β : Type*} [AddCommMonoid β] (f : Fin 128000 → β) :
    ∑ s : Fin 25, ∑ q : Fin 5120, f ⟨5120 * s.val + q.val, by have := s.isLt; have := q.isLt; omega⟩ = ∑ v : Fin 128000, f v :=
  sum_tiles 25 5120 f (fun s q => by have := s.isLt; have := q.isLt; omega)

/-! ## The accumulated sum over a run of 25 tiles -/

/-- The two input blocks of point n, at their literal shapes. -/
def blk0 (c : Dev nD) (n : ℕ) (h : n < cfg0.N) : FVec Ideal S128x5120 .f32 := iblk0 V c 0 ⟨n, h⟩
def blk1 (c : Dev nD) (n : ℕ) (h : n < cfg0.N) : FVec Ideal S5120x64 .f32 := iblk0 V c 1 ⟨n, h⟩

/-- Tile n's addend at output entry (p, k): the product of the two blocks of point n (zero past the grid, never used). -/
def addend (c : Dev nD) (n : ℕ) (pk : Fin 128 × Fin 64) : EReal :=
  if h : n < cfg0.N then ∑ q : Fin 5120, blk0 V c n h (ix2 pk.1 q) * blk1 V c n h (ix2 q pk.2) else 0

/-- What the [128, 64] buffer holds after point n, by coordinates. -/
def acc2 (c : Dev nD) (n : ℕ) (h : n < cfg0.N) (pk : Fin 128 × Fin 64) : EReal :=
  (outsAt0 V c n h).1 (ix2 pk.1 pk.2)

theorem acc2_reset (c : Dev nD) (n : ℕ) (h : n < cfg0.N) (h0 : n % 25 = 0) :
    acc2 V c n h = fun pk => 0 + addend V c n pk := by
  funext pk
  unfold acc2 addend
  rw [dif_pos h, outsAt0_A V c ⟨n, h⟩ h0]
  dsimp only
  rw [out_A_2, pay3_apply]
  congr 1
  exact Ideal.ofBits_zero_f32

theorem acc2_step (c : Dev nD) (n : ℕ) (h : n + 1 < cfg0.N) (h0 : ¬(n + 1) % 25 = 0) :
    acc2 V c (n + 1) h = fun pk => acc2 V c n (Nat.lt_of_succ_lt h) pk + addend V c (n + 1) pk := by
  funext pk
  unfold acc2 addend
  rw [dif_pos h, outsAt0_B V c ⟨n + 1, h⟩ h0]
  dsimp only
  rw [out_B_2, pay3_apply]
  rfl

/-- After the last tile of a run the buffer holds the sum of the run's 25 addends. -/
theorem acc2_last (c : Dev nD) (t : ℕ) (ht : t < cfg0.N) (h24 : t % 25 = 24) (pk : Fin 128 × Fin 64) :
    acc2 V c t ht pk = ∑ s ∈ Finset.range 25, addend V c (25 * (t / 25) + s) pk := by
  have h' : 25 * (t / 25) + t % 25 < cfg0.N := by rw [Nat.div_add_mod]; exact ht
  have e := Pipeline.eq_accAt_of_mod (acc2 V c) 25 (fun n h pk => 0 + addend V c n pk)
    (fun n h acc pk => acc pk + addend V c n pk) (acc2_reset V c) (acc2_step V c) (by decide) t ht h'
  rw [e]
  have e2 := Pipeline.accAt_add_apply (fun n (h : n < cfg0.N) pk => 0 + addend V c n pk)
    (fun n (h : n < cfg0.N) (acc : Fin 128 × Fin 64 → EReal) pk => acc pk + addend V c n pk) (fun _ => (0 : EReal)) (addend V c)
    (25 * (t / 25)) 24 (fun _ _ => rfl) (fun _ _ _ _ _ _ => rfl) (t % 25) (by omega) h' pk
  rw [e2, zero_add, h24]

/-! ## The running maximum over a run of 25 tiles -/

/-- |entry (p, q)| of the first block of point n (-inf past the grid, never used). -/
def absAt (c : Dev nD) (n : ℕ) (p : Fin 128) (q : Fin 5120) : EReal :=
  if h : n < cfg0.N then max (blk0 V c n h (ix2 p q)) (-(blk0 V c n h (ix2 p q))) else ⊥

/-- What the [8, 128] buffer holds after point n. -/
def acc3 (c : Dev nD) (n : ℕ) (h : n < cfg0.N) : FVec Ideal S8x128 .f32 := (outsAt0 V c n h).2

theorem acc3_reset (c : Dev nD) (n : ℕ) (h : n < cfg0.N) (h0 : n % 25 = 0) :
    acc3 V c n h = k0_pay4 (F := Ideal) (blk0 V c n h) (k0_pay2 (F := Ideal)) := by
  unfold acc3
  rw [outsAt0_A V c ⟨n, h⟩ h0]
  dsimp only
  rw [out_A_3]
  rfl

theorem acc3_step (c : Dev nD) (n : ℕ) (h : n + 1 < cfg0.N) (h0 : ¬(n + 1) % 25 = 0) :
    acc3 V c (n + 1) h = k0_pay4 (F := Ideal) (blk0 V c (n + 1) h) (acc3 V c n (Nat.lt_of_succ_lt h)) := by
  unfold acc3
  rw [outsAt0_B V c ⟨n + 1, h⟩ h0]
  dsimp only
  rw [out_B_3]
  rfl

/-- The fold of the maximum payload over the points b … b + j is bounded by z exactly when every |entry| of the
    first blocks of those points is: by induction on j, from -inf. -/
theorem accAt3_le (c : Dev nD) (b : ℕ) : ∀ (j : ℕ) (h : b + j < cfg0.N) (y : S8x128.Idx) (z : EReal),
    Pipeline.accAt (fun n h => k0_pay4 (F := Ideal) (blk0 V c n h) (k0_pay2 (F := Ideal)))
        (fun n h acc => k0_pay4 (F := Ideal) (blk0 V c n h) acc) b j h y ≤ z
      ↔ ∀ s, s ≤ j → ∀ (p : Fin 128) (q : Fin 5120), absAt V c (b + s) p q ≤ z
  | 0, h, y, z => by
    rw [Pipeline.accAt_zero, pay4_le]
    constructor
    · intro hh s hs p q
      obtain rfl : s = 0 := by omega
      unfold absAt
      rw [dif_pos h]
      exact hh.2 p q
    · intro hh
      refine ⟨?_, fun p q => ?_⟩
      · show (FloatOps.ofBits .f32 0xFF800000#32 : Ideal .f32) ≤ z
        rw [neg_inf]
        exact bot_le
      · have := hh 0 le_rfl p q
        unfold absAt at this
        rw [dif_pos h] at this
        exact this
  | j + 1, h, y, z => by
    rw [Pipeline.accAt_succ, pay4_le, accAt3_le c b j (Nat.lt_of_succ_lt h) y z]
    constructor
    · intro hh s hs p q
      by_cases hsj : s ≤ j
      · exact hh.1 s hsj p q
      · obtain rfl : s = j + 1 := by omega
        unfold absAt
        rw [dif_pos h]
        exact hh.2 p q
    · intro hh
      refine ⟨fun s hs p q => hh s (by omega) p q, fun p q => ?_⟩
      have := hh (j + 1) le_rfl p q
      unfold absAt at this
      rw [dif_pos h] at this
      exact this

/-- After the last tile of a run the buffer's entries are bounded by z exactly when every |entry| of the run's 25
    first blocks is. -/
theorem acc3_last (c : Dev nD) (t : ℕ) (ht : t < cfg0.N) (h24 : t % 25 = 24) (y : S8x128.Idx) (z : EReal) :
    acc3 V c t ht y ≤ z ↔ ∀ s, s ≤ 24 → ∀ (p : Fin 128) (q : Fin 5120), absAt V c (25 * (t / 25) + s) p q ≤ z := by
  have h' : 25 * (t / 25) + t % 25 < cfg0.N := by rw [Nat.div_add_mod]; exact ht
  have e := Pipeline.eq_accAt_of_mod (acc3 V c) 25 (fun n h => k0_pay4 (F := Ideal) (blk0 V c n h) (k0_pay2 (F := Ideal)))
    (fun n h acc => k0_pay4 (F := Ideal) (blk0 V c n h) acc) (acc3_reset V c) (acc3_step V c) (by decide) t ht h'
  rw [e, accAt3_le V c (25 * (t / 25)) (t % 25) h' y z, h24]

/-! ## The [256, 64] array after the region -/

/-- Tile s of batch half b: its addend at entry (p, k) is the sum over the tile's 5120 columns of L · W, at row
    128 b + p and columns 5120 s + q. -/
theorem addend_eq (c : Dev nD) (L : FVec Ideal S256x128000 .f32) (W : FVec Ideal S128000x64 .f32)
    (hL : V c main_arg1 = L) (hW : V c main_arg2 = W) (b s : ℕ) (hb : b < 2) (hs : s < 25) (p : Fin 128) (k : Fin 64)
    (r : Fin 256) (hr : r.val = 128 * b + p.val) :
    addend V c (25 * b + s) (p, k)
      = ∑ q : Fin 5120, L (ix2 r ⟨5120 * s + q.val, by have := q.isLt; omega⟩) * W (ix2 ⟨5120 * s + q.val, by have := q.isLt; omega⟩ k) := by
  have hN : cfg0.N = 50 := N_0
  have h : 25 * b + s < cfg0.N := by omega
  unfold addend
  rw [dif_pos h]
  refine Finset.sum_congr rfl fun q _ => ?_
  exact congrArg₂ (· * ·)
    (blkL V c L hL ⟨25 * b + s, h⟩ p q r ⟨5120 * s + q.val, by have := q.isLt; omega⟩ (by show r.val = 128 * ((25 * b + s) / 25) + p.val; omega) (by show 5120 * s + q.val = 5120 * ((25 * b + s) % 25) + q.val; omega))
    (blkW V c W hW ⟨25 * b + s, h⟩ q k ⟨5120 * s + q.val, by have := q.isLt; omega⟩ (by show 5120 * s + q.val = 5120 * ((25 * b + s) % 25) + q.val; omega))

/-- At a write-back point the [128, 64] buffer holds, at (p, k), the full contraction over the 128000 columns at row
    128 (t / 25) + p. -/
theorem acc2_full (c : Dev nD) (L : FVec Ideal S256x128000 .f32) (W : FVec Ideal S128000x64 .f32)
    (hL : V c main_arg1 = L) (hW : V c main_arg2 = W) (t : ℕ) (ht : t < cfg0.N) (h24 : t % 25 = 24) (p : Fin 128) (k : Fin 64)
    (r : Fin 256) (hr : r.val = 128 * (t / 25) + p.val) :
    acc2 V c t ht (p, k) = ∑ v : Fin 128000, L (ix2 r v) * W (ix2 v k) := by
  have hN : cfg0.N = 50 := N_0
  rw [acc2_last V c t ht h24 (p, k), Finset.sum_range, ← sum_tiles_vocab (fun v => L (ix2 r v) * W (ix2 v k))]
  refine Finset.sum_congr rfl fun s _ => ?_
  exact addend_eq V c L W hL hW (t / 25) s.val (by omega) s.isLt p k r hr

/-- The array the region leaves: entry (r, k) is the sum over all columns v of L(r, v) · W(v, k). -/
def G2 (L : FVec Ideal S256x128000 .f32) (W : FVec Ideal S128000x64 .f32) : FVec Ideal S256x64 .f32 :=
  fun j => ∑ v : Fin 128000, L (ix2 (⟨(j 0).val, idx2_lt0 j⟩ : Fin 256) v) * W (ix2 v (⟨(j 1).val, idx2_lt1 j⟩ : Fin 64))

set_option maxRecDepth 200000 in
theorem flushed2 (c : Dev nD) (L : FVec Ideal S256x128000 .f32) (W : FVec Ideal S128000x64 .f32)
    (hL : V c main_arg1 = L) (hW : V c main_arg2 = W) (t : Fin cfg0.N) (hf : (cfg0.win 2).flush t = true) :
    (dat0 V c).flushed 2 t = ((cfg0.win 2).blk t).view.read (Elt Ideal) (G2 L W) := by
  have hN : cfg0.N = 50 := N_0
  have h24 : t.val % 25 = 24 := (flush0_2 t).mp hf
  have ht : t.val < 50 := lt_of_lt_of_eq t.isLt hN
  show (cfg0.win 2).cut (grid0.coords t) ((dat0 V c).after 2 t) = _
  rw [after0_2]
  funext x
  rw [View.read_apply]
  have hx0 : (x 0).val < 128 := (x 0).isLt
  have hx1 : (x 1).val < 64 := (x 1).isLt
  have e1 : (cfg0.win 2).xinj (grid0.coords t) x = ix2 (⟨(x 0).val, hx0⟩ : Fin 128) (⟨(x 1).val, hx1⟩ : Fin 64) :=
    funext fun a => Fin.ext (by match a with | ⟨0, _⟩ => rfl | ⟨1, _⟩ => rfl)
  show (outsAt0 V c t.val t.isLt).1 ((cfg0.win 2).xinj (grid0.coords t) x) = G2 L W _
  rw [e1]
  refine (acc2_full V c L W hL hW t.val t.isLt h24 ⟨(x 0).val, hx0⟩ ⟨(x 1).val, hx1⟩ ⟨128 * (t.val / 25) + (x 0).val, by omega⟩ rfl).trans ?_
  unfold G2
  refine Finset.sum_congr rfl fun v _ => ?_
  refine congrArg₂ (· * ·) (congrArg L ?_) (congrArg W ?_)
  · refine funext fun a => Fin.ext ?_
    match a with
    | ⟨0, _⟩ => show 128 * (t.val / 25) + (x 0).val = win0_2.index t 0 * 128 + 1 * (x 0).val; rw [(idx_all t).2.2.1.1]; omega
    | ⟨1, _⟩ => rfl
  · refine funext fun a => Fin.ext ?_
    match a with
    | ⟨0, _⟩ => rfl
    | ⟨1, _⟩ => show (x 1).val = win0_2.index t 1 * 64 + 1 * (x 1).val; rw [(idx_all t).2.2.1.2]; omega

/-- Row r of the [256, 64] array lies in the block written back at the last tile of batch half r / 128. -/
theorem cover2 (i : S256x64.Idx) :
    ∃ t : Fin cfg0.N, (cfg0.win 2).flush t = true ∧ i ∈ ((cfg0.win 2).blk t).view.set := by
  have hN : cfg0.N = 50 := N_0
  have h0 : (i 0 : Nat) < 256 := (i 0).isLt
  have h1 : (i 1 : Nat) < 64 := (i 1).isLt
  have htN : 25 * ((i 0 : Nat) / 128) + 24 < cfg0.N := by omega
  refine ⟨⟨25 * ((i 0 : Nat) / 128) + 24, htN⟩, (flush0_2 _).mpr (by show (25 * ((i 0 : Nat) / 128) + 24) % 25 = 24; omega), ?_⟩
  show i ∈ ((View.whole main_v0_0).slice (win0_2.rect ⟨25 * ((i 0 : Nat) / 128) + 24, htN⟩)).set
  rw [View.set_slice_whole, Rect.mem_set_unit]
  intro a
  match a with
  | ⟨0, _⟩ =>
    show win0_2.index ⟨25 * ((i 0 : Nat) / 128) + 24, htN⟩ 0 * 128 ≤ (i 0 : Nat) ∧ (i 0 : Nat) < win0_2.index ⟨25 * ((i 0 : Nat) / 128) + 24, htN⟩ 0 * 128 + 128
    rw [(idx_all ⟨25 * ((i 0 : Nat) / 128) + 24, htN⟩).2.2.1.1]
    show (25 * ((i 0 : Nat) / 128) + 24) / 25 * 128 ≤ (i 0 : Nat) ∧ (i 0 : Nat) < (25 * ((i 0 : Nat) / 128) + 24) / 25 * 128 + 128
    omega
  | ⟨1, _⟩ =>
    show win0_2.index ⟨25 * ((i 0 : Nat) / 128) + 24, htN⟩ 1 * 64 ≤ (i 1 : Nat) ∧ (i 1 : Nat) < win0_2.index ⟨25 * ((i 0 : Nat) / 128) + 24, htN⟩ 1 * 64 + 64
    rw [(idx_all ⟨25 * ((i 0 : Nat) / 128) + 24, htN⟩).2.2.1.2]
    omega

/-- The [256, 64] array after the region: entry (r, k) is the sum over all 128000 columns v of L(r, v) · W(v, k). -/
theorem lw_final (c : Dev nD) (L : FVec Ideal S256x128000 .f32) (W : FVec Ideal S128000x64 .f32) (A : FVec Ideal S256x64 .f32)
    (hL : V c main_arg1 = L) (hW : V c main_arg2 = W) (hA : (dat0 V c).arrAt 2 cfg0.N = A) (r : Fin 256) (k : Fin 64) :
    A (ix2 r k) = ∑ v : Fin 128000, L (ix2 r v) * W (ix2 v k) := by
  have e : (dat0 V c).arrAt 2 cfg0.N = G2 L W :=
    (dat0 V c).arrAt_eq_of_cover 2 (G2 L W) (flushed2 V c L W hL hW) cover2
  rw [← hA, e]
  rfl

/-! ## The [16, 128] array after the region -/

/-- |entry (p, q)| of the first block of tile s of batch half b is |L| at row 128 b + p, column 5120 s + q. -/
theorem absAt_eq (c : Dev nD) (L : FVec Ideal S256x128000 .f32) (hL : V c main_arg1 = L) (b s : ℕ) (hb : b < 2) (hs : s < 25)
    (p : Fin 128) (q : Fin 5120) (r : Fin 256) (v : Fin 128000) (hr : r.val = 128 * b + p.val) (hv : v.val = 5120 * s + q.val) :
    absAt V c (25 * b + s) p q = max (L (ix2 r v)) (-(L (ix2 r v))) := by
  have hN : cfg0.N = 50 := N_0
  have h : 25 * b + s < cfg0.N := by omega
  have e : blk0 V c (25 * b + s) h (ix2 p q) = L (ix2 r v) :=
    blkL V c L hL ⟨25 * b + s, h⟩ p q r v (by show r.val = 128 * ((25 * b + s) / 25) + p.val; omega) (by show v.val = 5120 * ((25 * b + s) % 25) + q.val; omega)
  unfold absAt
  rw [dif_pos h, e]

/-- The same buffer contents at equal points and equal entries. -/
theorem acc3_congr (c : Dev nD) (n n' : ℕ) (h : n < cfg0.N) (h' : n' < cfg0.N) (y y' : S8x128.Idx) (en : n = n') (ey : y = y') :
    acc3 V c n h y = acc3 V c n' h' y' := by
  subst en ey; rfl

/-- The array the region leaves: row y of the [16, 128] array is row y % 8 of what the buffer holds after the last
    tile of batch half y / 8. -/
def G3 (c : Dev nD) : FVec Ideal S16x128 .f32 := fun j =>
  if h : 25 * ((j 0).val / 8) + 24 < cfg0.N then
    acc3 V c (25 * ((j 0).val / 8) + 24) h (ix2 (⟨(j 0).val % 8, Nat.mod_lt _ (by decide)⟩ : Fin 8) (⟨(j 1).val, idx2_lt1 j⟩ : Fin 128))
  else ⊥

set_option maxRecDepth 200000 in
theorem flushed3 (c : Dev nD) (t : Fin cfg0.N) (hf : (cfg0.win 3).flush t = true) :
    (dat0 V c).flushed 3 t = ((cfg0.win 3).blk t).view.read (Elt Ideal) (G3 V c) := by
  have hN : cfg0.N = 50 := N_0
  have h24 : t.val % 25 = 24 := (flush0_3 t).mp hf
  have ht : t.val < 50 := lt_of_lt_of_eq t.isLt hN
  show (cfg0.win 3).cut (grid0.coords t) ((dat0 V c).after 3 t) = _
  rw [after0_3]
  funext x
  rw [View.read_apply]
  have hx0 : (x 0).val < 8 := (x 0).isLt
  have hx1 : (x 1).val < 128 := (x 1).isLt
  have e0 : ((((cfg0.win 3).blk t).view.emb x) 0).val = win0_3.index t 0 * 8 + 1 * (x 0).val := rfl
  have e1 : ((((cfg0.win 3).blk t).view.emb x) 1).val = win0_3.index t 1 * 128 + 1 * (x 1).val := rfl
  rw [(idx_all t).2.2.2.1] at e0
  rw [(idx_all t).2.2.2.2] at e1
  show acc3 V c t.val t.isLt ((cfg0.win 3).xinj (grid0.coords t) x) = G3 V c (((cfg0.win 3).blk t).view.emb x)
  unfold G3
  have hd : 25 * (((((cfg0.win 3).blk t).view.emb x) 0).val / 8) + 24 < cfg0.N := by rw [e0]; omega
  rw [dif_pos hd]
  refine acc3_congr V c _ _ _ _ _ _ (by rw [e0]; omega) (funext fun a => Fin.ext ?_)
  match a with
  | ⟨0, _⟩ => show (x 0).val = ((((cfg0.win 3).blk t).view.emb x) 0).val % 8; rw [e0]; omega
  | ⟨1, _⟩ => show (x 1).val = ((((cfg0.win 3).blk t).view.emb x) 1).val; rw [e1]; omega

/-- Row y of the [16, 128] array lies in the block written back at the last tile of batch half y / 8. -/
theorem cover3 (i : S16x128.Idx) :
    ∃ t : Fin cfg0.N, (cfg0.win 3).flush t = true ∧ i ∈ ((cfg0.win 3).blk t).view.set := by
  have hN : cfg0.N = 50 := N_0
  have h0 : (i 0 : Nat) < 16 := (i 0).isLt
  have h1 : (i 1 : Nat) < 128 := (i 1).isLt
  have htN : 25 * ((i 0 : Nat) / 8) + 24 < cfg0.N := by omega
  refine ⟨⟨25 * ((i 0 : Nat) / 8) + 24, htN⟩, (flush0_3 _).mpr (by show (25 * ((i 0 : Nat) / 8) + 24) % 25 = 24; omega), ?_⟩
  show i ∈ ((View.whole main_v0_1).slice (win0_3.rect ⟨25 * ((i 0 : Nat) / 8) + 24, htN⟩)).set
  rw [View.set_slice_whole, Rect.mem_set_unit]
  intro a
  match a with
  | ⟨0, _⟩ =>
    show win0_3.index ⟨25 * ((i 0 : Nat) / 8) + 24, htN⟩ 0 * 8 ≤ (i 0 : Nat) ∧ (i 0 : Nat) < win0_3.index ⟨25 * ((i 0 : Nat) / 8) + 24, htN⟩ 0 * 8 + 8
    rw [(idx_all ⟨25 * ((i 0 : Nat) / 8) + 24, htN⟩).2.2.2.1]
    show (25 * ((i 0 : Nat) / 8) + 24) / 25 * 8 ≤ (i 0 : Nat) ∧ (i 0 : Nat) < (25 * ((i 0 : Nat) / 8) + 24) / 25 * 8 + 8
    omega
  | ⟨1, _⟩ =>
    show win0_3.index ⟨25 * ((i 0 : Nat) / 8) + 24, htN⟩ 1 * 128 ≤ (i 1 : Nat) ∧ (i 1 : Nat) < win0_3.index ⟨25 * ((i 0 : Nat) / 8) + 24, htN⟩ 1 * 128 + 128
    rw [(idx_all ⟨25 * ((i 0 : Nat) / 8) + 24, htN⟩).2.2.2.2]
    omega

/-- An entry in row y of the array is bounded by z exactly when every |L(r, v)| with r in batch half y / 8 is. -/
theorem G3_le (c : Dev nD) (L : FVec Ideal S256x128000 .f32) (hL : V c main_arg1 = L) (y : S16x128.Idx) (z : EReal) :
    G3 V c y ≤ z ↔ ∀ (s : ℕ) (hs : s < 25) (p : Fin 128) (q : Fin 5120),
      max (L (ix2 (⟨128 * ((y 0).val / 8) + p.val, by have := idx2_lt0 y; have := p.isLt; omega⟩ : Fin 256) (⟨5120 * s + q.val, by have := q.isLt; omega⟩ : Fin 128000)))
        (-(L (ix2 (⟨128 * ((y 0).val / 8) + p.val, by have := idx2_lt0 y; have := p.isLt; omega⟩ : Fin 256) (⟨5120 * s + q.val, by have := q.isLt; omega⟩ : Fin 128000)))) ≤ z := by
  have hN : cfg0.N = 50 := N_0
  have h0 : (y 0).val < 16 := idx2_lt0 y
  have hd : 25 * ((y 0).val / 8) + 24 < cfg0.N := by omega
  unfold G3
  rw [dif_pos hd, acc3_last V c _ hd (by omega)]
  have eb : 25 * ((25 * ((y 0).val / 8) + 24) / 25) = 25 * ((y 0).val / 8) := by omega
  rw [eb]
  constructor
  · intro hh s hs p q
    rw [← absAt_eq V c L hL ((y 0).val / 8) s (by omega) hs p q _ _ rfl rfl]
    exact hh s (by omega) p q
  · intro hh s hs p q
    rw [absAt_eq V c L hL ((y 0).val / 8) s (by omega) (by omega) p q ⟨128 * ((y 0).val / 8) + p.val, by have := p.isLt; omega⟩ ⟨5120 * s + q.val, by have := q.isLt; omega⟩ rfl rfl]
    exact hh s (by omega) p q

/-- The [16, 128] array after the region, by the universal property of a maximum: a bound of all its entries is
    exactly a bound of all |L(r, v)|. -/
theorem maxlog_final (c : Dev nD) (L : FVec Ideal S256x128000 .f32) (M : FVec Ideal S16x128 .f32)
    (hL : V c main_arg1 = L) (hM : (dat0 V c).arrAt 3 cfg0.N = M) (z : EReal) :
    (∀ y : S16x128.Idx, M y ≤ z) ↔ ∀ (r : Fin 256) (v : Fin 128000), max (L (ix2 r v)) (-(L (ix2 r v))) ≤ z := by
  have e : (dat0 V c).arrAt 3 cfg0.N = G3 V c :=
    (dat0 V c).arrAt_eq_of_cover 3 (G3 V c) (flushed3 V c) cover3
  rw [← hM, e]
  constructor
  · intro hh r v
    have hr := r.isLt
    have hv := v.isLt
    have h := (G3_le V c L hL (ix2 (⟨8 * (r.val / 128), by omega⟩ : Fin 16) (0 : Fin 128)) z).mp (hh _) (v.val / 5120) (by omega)
      ⟨r.val % 128, Nat.mod_lt _ (by decide)⟩ ⟨v.val % 5120, Nat.mod_lt _ (by decide)⟩
    have er : (⟨128 * (((ix2 (⟨8 * (r.val / 128), by omega⟩ : Fin 16) (0 : Fin 128)) 0).val / 8) + r.val % 128, by show 128 * (8 * (r.val / 128) / 8) + r.val % 128 < 256; omega⟩ : Fin 256) = r :=
      Fin.ext (by show 128 * (8 * (r.val / 128) / 8) + r.val % 128 = r.val; omega)
    have ev : (⟨5120 * (v.val / 5120) + v.val % 5120, by omega⟩ : Fin 128000) = v := Fin.ext (by show 5120 * (v.val / 5120) + v.val % 5120 = v.val; omega)
    rw [er, ev] at h
    exact h
  · intro hh y
    exact (G3_le V c L hL y z).mpr fun s hs p q => hh _ _

end Cert.KernelIdeal.Region0

end
-- ==== Proof.Region1.lean ====
/-
  The second pallas_call, read as values over the extended reals. Its grid is (2, 25): point t = 25·b + i handles
  batch half b and vocabulary tile i. With A the [256, 64] array it is entered with, the body forms, for the rows of
  half b and the 5120 columns of tile i, the difference D(r, v) = (Σ_k A(r, k) · W(v, k)) − L(r, v), and output block b
  of the [16, 128] array holds, in every entry, the running maximum from -inf of |D| over the tiles seen so far.
-/
import proofs.«149240_j54838142435803_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

-- the buffer contents the region is entered with (any)
variable (V : (c : Dev nD) → (b : Ref sig .tc) → Buf (Elt Ideal) ((c : Thread nD τ).loc b))

section Payloads

variable {F : FTy → Type} [FloatOps F]

theorem hz : (![0, 0] : Fin 2 → Nat) = fun _ => 0 := funext fun a => by fin_cases a <;> rfl

/-- In the accumulating case the body leaves, in the output's buffer holding `xo`, the payload of the four blocks. -/
theorem out_B (c : Dev nD) (i : grid1.Coords) (a2 : Memref sig .tc .vmem S128x64 .f32) (h2 : a2.IsWhole)
    (a3 : Memref sig .tc .vmem S5120x64 .f32) (h3 : a3.IsWhole) (a4 : Memref sig .tc .vmem S128x5120 .f32) (h4 : a4.IsWhole)
    (a5 : Memref sig .tc .vmem S8x128 .f32) (h5 : a5.IsWhole) (hc : ¬cond1_0 i)
    (x0 : Vec F S128x64 .f32) (x1 : Vec F S5120x64 .f32) (x2 : Vec F S128x5120 .f32) (xo : Vec F S8x128 .f32) :
    out1_B_3 c i a2 h2 a3 h3 a4 h4 a5 h5 hc x0 x1 x2 xo = k1_pay2 x0 x1 x2 xo := by
  unfold out1_B_3
  rw [View.read_writes_eq_canon _ _ _ (cover1_B_3 c i a2 h2 a3 h3 a4 h4 a5 h5 hc x0 x1 x2 xo)]
  unfold kernelRun1_B
  dsimp only
  rw [View.canon_unit_zero hz]
  simp only [View.readAt_eq_ld, h2.read_unread, h3.read_unread, h4.read_unread, h5.read_unread,
    View.ld_unit_zero (S := S128x64) hz, View.ld_unit_zero (S := S5120x64) hz, View.ld_unit_zero (S := S128x5120) hz,
    View.ld_unit_zero (S := S8x128) hz]

/-- In the resetting case the body first stores the constant block, reads it back, and leaves the payload over it. -/
theorem out_A (c : Dev nD) (i : grid1.Coords) (a2 : Memref sig .tc .vmem S128x64 .f32) (h2 : a2.IsWhole)
    (a3 : Memref sig .tc .vmem S5120x64 .f32) (h3 : a3.IsWhole) (a4 : Memref sig .tc .vmem S128x5120 .f32) (h4 : a4.IsWhole)
    (a5 : Memref sig .tc .vmem S8x128 .f32) (h5 : a5.IsWhole) (hc : cond1_0 i)
    (x0 : Vec F S128x64 .f32) (x1 : Vec F S5120x64 .f32) (x2 : Vec F S128x5120 .f32) :
    out1_A_3 c i a2 h2 a3 h3 a4 h4 a5 h5 hc x0 x1 x2 = k1_pay2 x0 x1 x2 k1_pay1 := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S8x128) hz, View.readCov_unit_zero (S := S8x128) _ hz]
  simp only [View.readAt_eq_ld, h2.read_unread, h3.read_unread, h4.read_unread,
    View.ld_unit_zero (S := S128x64) hz, View.ld_unit_zero (S := S5120x64) hz, View.ld_unit_zero (S := S128x5120) hz]

end Payloads

section Value

/-- The pattern of -inf denotes the bottom of the extended reals. -/
theorem ofBits_neg_inf : Ideal.ofBits .f32 0xFF800000#32 = (⊥ : EReal) := by simp [Ideal.ofBits, Ideal.ieee]

/-- A maximum reduction from -inf over one axis is bounded by `z` exactly when every element it runs over is. -/
theorem red_le {s t : Shape} {a : Fin s.rank} (src : FVec Ideal s .f32) (h : s.Reduces [a] t) (hφ : FKind.Formats .f32)
    (hacc : (0xFF800000#32 : BitVec FTy.f32.bits) = FKind.maximumf.neutral .f32 hφ) (j : t.Idx) (z : EReal) :
    multiReduction .maximumf [a] t src 0xFF800000#32 h hφ hacc j ≤ z ↔ ∀ k : Fin (s.size a), src (h.lift j k) ≤ z := by
  rw [Ideal.multiReduction_maximumf_single, Finset.fold_max_le]
  constructor
  · intro hh k; exact hh.2 k (Finset.mem_univ k)
  · intro hh; refine ⟨?_, fun k _ => hh k⟩
    show Ideal.ofBits .f32 0xFF800000#32 ≤ z
    rw [ofBits_neg_inf]; exact bot_le

/-- Row `p` of a [128, 5120] block with column `q` put back on the reduced axis is the entry (p, q). -/
theorem lift_row (hr1 : S128x5120.Reduces [1] S128) (p : Fin 128) (q : Fin 5120) : hr1.lift (ix1 p) q = ix2 p q :=
  funext fun a => by
    match a with
    | ⟨0, _⟩ => exact Fin.ext rfl
    | ⟨1, _⟩ => exact Fin.ext rfl

/-- The tower of the two reductions, the keep-dims casts and the broadcast, over any [128, 5120] block `T`: the
    maximum of the accumulator and the block's overall maximum is bounded exactly when both are. -/
theorem tower_le (T : FVec Ideal S128x5120 .f32) (acc : FVec Ideal S8x128 .f32)
    (hr1 : S128x5120.Reduces [1] S128) (hc1 : S128.ShapeCasts S128x1) (hr2 : S128x1.Reduces [0] S1) (hc2 : S1.ShapeCasts S1x1)
    (hb : S1x1.Broadcasts S8x128) (hφ1 hφ2 : FKind.Formats .f32)
    (hacc1 : (0xFF800000#32 : BitVec FTy.f32.bits) = FKind.maximumf.neutral .f32 hφ1)
    (hacc2 : (0xFF800000#32 : BitVec FTy.f32.bits) = FKind.maximumf.neutral .f32 hφ2) (y : S8x128.Idx) (z : EReal) :
    maximumf acc (broadcastTo S8x128 (shapeCast S1x1 (multiReduction .maximumf [0] S1
        (shapeCast S128x1 (multiReduction .maximumf [1] S128 T 0xFF800000#32 hr1 hφ1 hacc1) hc1) 0xFF800000#32 hr2 hφ2 hacc2) hc2) hb) y ≤ z
      ↔ acc y ≤ z ∧ ∀ (p : Fin 128) (q : Fin 5120), T (ix2 p q) ≤ z := by
  rw [maximumf_apply, max_le_iff]
  refine and_congr Iff.rfl ?_
  rw [broadcastTo_apply _ hb y (ix2 (0 : Fin 1) (0 : Fin 1)) (fun a => by match a with | ⟨0, _⟩ => rfl | ⟨1, _⟩ => rfl)]
  rw [shapeCast_apply _ hc2 (ix2 (0 : Fin 1) (0 : Fin 1)) (ix1 (0 : Fin 1))
    (by rw [Shape.rowMajor_val_one, Shape.rowMajor_val_two]; rfl), red_le]
  constructor
  · intro hh p q
    have h1 := hh p
    rw [shapeCast_apply _ hc1 (hr2.lift (ix1 (0 : Fin 1)) p) (ix1 p)
      (by rw [Shape.rowMajor_val_one, Shape.rowMajor_val_two]; show p.val = p.val * 1 + 0; omega), red_le] at h1
    have h2 := h1 q
    rwa [lift_row] at h2
  · intro hh (p : Fin 128)
    rw [shapeCast_apply _ hc1 (hr2.lift (ix1 (0 : Fin 1)) p) (ix1 p)
      (by rw [Shape.rowMajor_val_one, Shape.rowMajor_val_two]; show p.val = p.val * 1 + 0; omega), red_le]
    intro (q : Fin 5120)
    rw [lift_row]
    exact hh p q

end Value

section Matmul

theorem lhs_0 (i : S128x5120.Idx) (q : dot_S128x64_S5120x64_S128x5120_1_1_0_0_n_n.contr.Idx) :
    (dot_S128x64_S5120x64_S128x5120_1_1_0_0_n_n.lhsIdx i q 0).val = (i 0).val := by
  unfold DotDims.lhsIdx
  rw [dif_neg (show ¬(0 : Fin S128x64.rank) ∈ dot_S128x64_S5120x64_S128x5120_1_1_0_0_n_n.lhsBatch by decide),
    dif_pos (show (0 : Fin S128x64.rank) ∈ dot_S128x64_S5120x64_S128x5120_1_1_0_0_n_n.lhsNonContracting by decide)]
  rfl
theorem lhs_1 (i : S128x5120.Idx) (q : dot_S128x64_S5120x64_S128x5120_1_1_0_0_n_n.contr.Idx) :
    (dot_S128x64_S5120x64_S128x5120_1_1_0_0_n_n.lhsIdx i q 1).val = (q ⟨0, by decide⟩).val :=
  dot_S128x64_S5120x64_S128x5120_1_1_0_0_n_n.lhsIdx_val_of_single rfl i q
theorem rhs_0 (i : S128x5120.Idx) (q : dot_S128x64_S5120x64_S128x5120_1_1_0_0_n_n.contr.Idx) :
    (dot_S128x64_S5120x64_S128x5120_1_1_0_0_n_n.rhsIdx i q 0).val = (i 1).val := by
  unfold DotDims.rhsIdx
  rw [dif_neg (show ¬(0 : Fin S5120x64.rank) ∈ dot_S128x64_S5120x64_S128x5120_1_1_0_0_n_n.rhsBatch by decide),
    dif_pos (show (0 : Fin S5120x64.rank) ∈ dot_S128x64_S5120x64_S128x5120_1_1_0_0_n_n.rhsNonContracting by decide)]
  rfl
theorem rhs_1 (i : S128x5120.Idx) (q : dot_S128x64_S5120x64_S128x5120_1_1_0_0_n_n.contr.Idx) :
    (dot_S128x64_S5120x64_S128x5120_1_1_0_0_n_n.rhsIdx i q 1).val = (q ⟨0, by decide⟩).val :=
  dot_S128x64_S5120x64_S128x5120_1_1_0_0_n_n.rhsIdx_val_of_single rfl i q

/-- The product block from a zero accumulator, at (p, q): both operands contract their axis 1 and keep their axis 0. -/
theorem mm_apply (x0 : FVec Ideal S128x64 .bf16) (x1 : FVec Ideal S5120x64 .bf16) (p : Fin 128) (q : Fin 5120) :
    matmul dot_S128x64_S5120x64_S128x5120_1_1_0_0_n_n none x0 x1 (constant S128x5120 .f32 0x00000000#32) (ix2 p q)
      = ∑ k : Fin 64, x0 (ix2 p k) * x1 (ix2 q k) := by
  refine (Ideal.matmul_constant_zero_apply _ none x0 x1 (ix2 p q)).trans ?_
  rw [← Equiv.sum_comp (contrEquiv1 dot_S128x64_S5120x64_S128x5120_1_1_0_0_n_n 64 rfl rfl).symm]
  refine Finset.sum_congr rfl fun k _ => ?_
  have hk := contrEquiv1_symm_val dot_S128x64_S5120x64_S128x5120_1_1_0_0_n_n 64 rfl rfl k
  have el : dot_S128x64_S5120x64_S128x5120_1_1_0_0_n_n.lhsIdx (ix2 p q) ((contrEquiv1 dot_S128x64_S5120x64_S128x5120_1_1_0_0_n_n 64 rfl rfl).symm k) = ix2 p k :=
    funext fun a => Fin.ext (by
      match a with
      | ⟨0, _⟩ => exact lhs_0 _ _
      | ⟨1, _⟩ => exact (lhs_1 _ _).trans hk)
  have er : dot_S128x64_S5120x64_S128x5120_1_1_0_0_n_n.rhsIdx (ix2 p q) ((contrEquiv1 dot_S128x64_S5120x64_S128x5120_1_1_0_0_n_n 64 rfl rfl).symm k) = ix2 q k :=
    funext fun a => Fin.ext (by
      match a with
      | ⟨0, _⟩ => exact rhs_0 _ _
      | ⟨1, _⟩ => exact (rhs_1 _ _).trans hk)
  rw [el, er]

/-- The difference the body forms at row `p`, column `q` of its three blocks. -/
def Dblk (x0 : Vec Ideal S128x64 .f32) (x1 : Vec Ideal S5120x64 .f32) (x2 : Vec Ideal S128x5120 .f32) (p : Fin 128) (q : Fin 5120) : EReal :=
  (∑ k : Fin 64, x0 (ix2 p k) * x1 (ix2 q k)) - x2 (ix2 p q)

/-- The body's payload by the universal property of its maximum: it is bounded by `z` exactly when the accumulator
    there and every |difference| of the blocks are. -/
theorem pay2_le (x0 : Vec Ideal S128x64 .f32) (x1 : Vec Ideal S5120x64 .f32) (x2 : Vec Ideal S128x5120 .f32) (acc : Vec Ideal S8x128 .f32)
    (y : S8x128.Idx) (z : EReal) :
    k1_pay2 x0 x1 x2 acc y ≤ z
      ↔ acc y ≤ z ∧ ∀ (p : Fin 128) (q : Fin 5120), max (Dblk x0 x1 x2 p q) (-(Dblk x0 x1 x2 p q)) ≤ z := by
  unfold k1_pay2
  dsimp only
  simp only [shapeCast_self]
  refine (tower_le _ _ _ _ _ _ _ _ _ _ _ y z).trans (and_congr Iff.rfl (forall₂_congr fun p q => ?_))
  have e := mm_apply (truncf .bf16 x0 bitsLt_bf16_f32) (truncf .bf16 x1 bitsLt_bf16_f32) p q
  exact iff_of_eq (congrArg (fun m : EReal => max (m - x2 (ix2 p q)) (-(m - x2 (ix2 p q))) ≤ z) e)

end Matmul

section Blocks

/-- The block indices of the four windows at point `t`, decided over the 50 points. -/
theorem idx_0 : ∀ t : Fin cfg1.N, win1_0.index t 0 = t.val / 25 ∧ win1_0.index t 1 = 0 :=
  (by decide +kernel : ∀ t : Fin grid1.N, win1_0.index t 0 = t.val / 25 ∧ win1_0.index t 1 = 0)
theorem idx_1 : ∀ t : Fin cfg1.N, win1_1.index t 0 = t.val % 25 ∧ win1_1.index t 1 = 0 :=
  (by decide +kernel : ∀ t : Fin grid1.N, win1_1.index t 0 = t.val % 25 ∧ win1_1.index t 1 = 0)
theorem idx_2 : ∀ t : Fin cfg1.N, win1_2.index t 0 = t.val / 25 ∧ win1_2.index t 1 = t.val % 25 :=
  (by decide +kernel : ∀ t : Fin grid1.N, win1_2.index t 0 = t.val / 25 ∧ win1_2.index t 1 = t.val % 25)
theorem idx_3 : ∀ t : Fin cfg1.N, win1_3.index t 0 = t.val / 25 ∧ win1_3.index t 1 = 0 :=
  (by decide +kernel : ∀ t : Fin grid1.N, win1_3.index t 0 = t.val / 25 ∧ win1_3.index t 1 = 0)

/-- The first window's block at point `t` is rows 128·(t / 25) … of the [256, 64] array. -/
theorem iblk_0 (c : Dev nD) (A : FVec Ideal S256x64 .f32) (hA : V c main_v0_0 = A) (t : Fin cfg1.N) (p : Fin 128) (k : Fin 64)
    (h : 128 * (t.val / 25) + p.val < 256) :
    (iblk1 V c 0 t : Vec Ideal S128x64 .f32) (ix2 p k) = A (ix2 ⟨128 * (t.val / 25) + p.val, h⟩ k) := by
  subst hA
  unfold iblk1
  rw [View.read_apply]
  show V c main_v0_0 _ = V c main_v0_0 _
  congr 1
  funext a
  apply Fin.ext
  match a with
  | ⟨0, _⟩ => show win1_0.index t 0 * 128 + 1 * p.val = 128 * (t.val / 25) + p.val; rw [(idx_0 t).1]; omega
  | ⟨1, _⟩ => show win1_0.index t 1 * 64 + 1 * k.val = k.val; rw [(idx_0 t).2]; omega

/-- The second window's block at point `t` is rows 5120·(t % 25) … of the [128000, 64] array. -/
theorem iblk_1 (c : Dev nD) (W : FVec Ideal S128000x64 .f32) (hW : V c main_arg2 = W) (t : Fin cfg1.N) (q : Fin 5120) (k : Fin 64)
    (h : 5120 * (t.val % 25) + q.val < 128000) :
    (iblk1 V c 1 t : Vec Ideal S5120x64 .f32) (ix2 q k) = W (ix2 ⟨5120 * (t.val % 25) + q.val, h⟩ k) := by
  subst hW
  unfold iblk1
  rw [View.read_apply]
  show V c main_arg2 _ = V c main_arg2 _
  congr 1
  funext a
  apply Fin.ext
  match a with
  | ⟨0, _⟩ => show win1_1.index t 0 * 5120 + 1 * q.val = 5120 * (t.val % 25) + q.val; rw [(idx_1 t).1]; omega
  | ⟨1, _⟩ => show win1_1.index t 1 * 64 + 1 * k.val = k.val; rw [(idx_1 t).2]; omega

/-- The third window's block at point `t` is rows 128·(t / 25) …, columns 5120·(t % 25) … of the [256, 128000] array. -/
theorem iblk_2 (c : Dev nD) (L : FVec Ideal S256x128000 .f32) (hL : V c main_arg1 = L) (t : Fin cfg1.N) (p : Fin 128) (q : Fin 5120)
    (hp : 128 * (t.val / 25) + p.val < 256) (hq : 5120 * (t.val % 25) + q.val < 128000) :
    (iblk1 V c 2 t : Vec Ideal S128x5120 .f32) (ix2 p q)
      = L (ix2 ⟨128 * (t.val / 25) + p.val, hp⟩ ⟨5120 * (t.val % 25) + q.val, hq⟩) := by
  subst hL
  unfold iblk1
  rw [View.read_apply]
  show V c main_arg1 _ = V c main_arg1 _
  congr 1
  funext a
  apply Fin.ext
  match a with
  | ⟨0, _⟩ => show win1_2.index t 0 * 128 + 1 * p.val = 128 * (t.val / 25) + p.val; rw [(idx_2 t).1]; omega
  | ⟨1, _⟩ => show win1_2.index t 1 * 5120 + 1 * q.val = 5120 * (t.val % 25) + q.val; rw [(idx_2 t).2]; omega

/-- The difference D(r, v) = (Σ_k A(r, k) · W(v, k)) − L(r, v) over the whole arrays. -/
def D (A : FVec Ideal S256x64 .f32) (W : FVec Ideal S128000x64 .f32) (L : FVec Ideal S256x128000 .f32)
    (r : Fin 256) (v : Fin 128000) : EReal :=
  (∑ k : Fin 64, A (ix2 r k) * W (ix2 v k)) - L (ix2 r v)

/-- The body's difference at (p, q) of the blocks of point `t` is D at row 128·(t / 25) + p, column 5120·(t % 25) + q. -/
theorem dblk_eq (c : Dev nD) (L : FVec Ideal S256x128000 .f32) (W : FVec Ideal S128000x64 .f32) (A : FVec Ideal S256x64 .f32)
    (hL : V c main_arg1 = L) (hW : V c main_arg2 = W) (hA : V c main_v0_0 = A) (t : Fin cfg1.N) (p : Fin 128) (q : Fin 5120)
    (hp : 128 * (t.val / 25) + p.val < 256) (hq : 5120 * (t.val % 25) + q.val < 128000) :
    Dblk (iblk1 V c 0 t) (iblk1 V c 1 t) (iblk1 V c 2 t) p q
      = D A W L ⟨128 * (t.val / 25) + p.val, hp⟩ ⟨5120 * (t.val % 25) + q.val, hq⟩ := by
  unfold Dblk D
  rw [iblk_2 V c L hL t p q hp hq]
  refine congrArg (· - _) (Finset.sum_congr rfl fun k _ => ?_)
  rw [iblk_0 V c A hA t p k hp, iblk_1 V c W hW t q k hq]

end Blocks

section Run

/-- |D(r, v)|, as the body forms it: the maximum of the difference and its negation. -/
def absD (A : FVec Ideal S256x64 .f32) (W : FVec Ideal S128000x64 .f32) (L : FVec Ideal S256x128000 .f32)
    (r : Fin 256) (v : Fin 128000) : EReal :=
  max (D A W L r v) (-(D A W L r v))

theorem outs_congr (c : Dev nD) {n m : Nat} (e : n = m) (hn : n < cfg1.N) (hm : m < cfg1.N) :
    outsAt1 V c n hn = outsAt1 V c m hm := by subst e; rfl

/-- The blocks' difference at point `t` of batch half `b`, tile `s`. -/
theorem dblk_eq' (c : Dev nD) (L : FVec Ideal S256x128000 .f32) (W : FVec Ideal S128000x64 .f32) (A : FVec Ideal S256x64 .f32)
    (hL : V c main_arg1 = L) (hW : V c main_arg2 = W) (hA : V c main_v0_0 = A) (t : Fin cfg1.N) (p : Fin 128) (q : Fin 5120)
    (b s : Nat) (hb : t.val / 25 = b) (hs : t.val % 25 = s)
    (hp : 128 * b + p.val < 256) (hq : 5120 * s + q.val < 128000) :
    Dblk (iblk1 V c 0 t) (iblk1 V c 1 t) (iblk1 V c 2 t) p q = D A W L ⟨128 * b + p.val, hp⟩ ⟨5120 * s + q.val, hq⟩ := by
  subst hb hs
  exact dblk_eq V c L W A hL hW hA t p q hp hq

/-- A statement about every (p, q) of tile (b, s) is the statement about every (r, v) lying in that tile. -/
theorem tile_iff (P : Fin 256 → Fin 128000 → Prop) (b s : Nat) (hp : ∀ p : Fin 128, 128 * b + p.val < 256)
    (hq : ∀ q : Fin 5120, 5120 * s + q.val < 128000) :
    (∀ (p : Fin 128) (q : Fin 5120), P ⟨128 * b + p.val, hp p⟩ ⟨5120 * s + q.val, hq q⟩)
      ↔ ∀ (r : Fin 256) (v : Fin 128000), r.val / 128 = b → v.val / 5120 = s → P r v := by
  constructor
  · intro h r v hr hv
    have key : ∀ (r' : Fin 256) (v' : Fin 128000), r' = r → v' = v → P r' v' → P r v := by
      rintro _ _ rfl rfl h'; exact h'
    exact key _ _ (Fin.ext (by show 128 * b + r.val % 128 = r.val; omega)) (Fin.ext (by show 5120 * s + v.val % 5120 = v.val; omega))
      (h ⟨r.val % 128, Nat.mod_lt _ (by decide)⟩ ⟨v.val % 5120, Nat.mod_lt _ (by decide)⟩)
  · intro h p q
    exact h _ _ (by show (128 * b + p.val) / 128 = b; omega) (by show (5120 * s + q.val) / 5120 = s; omega)

/-- The bounds of the blocks of point 25·b + s against `z`, over the rows and columns of tile (b, s). -/
theorem blocks_le (c : Dev nD) (L : FVec Ideal S256x128000 .f32) (W : FVec Ideal S128000x64 .f32) (A : FVec Ideal S256x64 .f32)
    (hL : V c main_arg1 = L) (hW : V c main_arg2 = W) (hA : V c main_v0_0 = A) (b s : Nat) (hb : b < 2) (hs : s < 25)
    (h : 25 * b + s < cfg1.N) (z : EReal) :
    (∀ (p : Fin 128) (q : Fin 5120),
        max (Dblk (iblk1 V c 0 ⟨25 * b + s, h⟩) (iblk1 V c 1 ⟨25 * b + s, h⟩) (iblk1 V c 2 ⟨25 * b + s, h⟩) p q)
          (-(Dblk (iblk1 V c 0 ⟨25 * b + s, h⟩) (iblk1 V c 1 ⟨25 * b + s, h⟩) (iblk1 V c 2 ⟨25 * b + s, h⟩) p q)) ≤ z)
      ↔ ∀ (r : Fin 256) (v : Fin 128000), r.val / 128 = b → v.val / 5120 = s → absD A W L r v ≤ z := by
  have hp : ∀ p : Fin 128, 128 * b + p.val < 256 := fun p => by have := p.isLt; omega
  have hq : ∀ q : Fin 5120, 5120 * s + q.val < 128000 := fun q => by have := q.isLt; omega
  refine Iff.trans (forall₂_congr fun p q => ?_) (tile_iff (fun r v => absD A W L r v ≤ z) b s hp hq)
  rw [dblk_eq' V c L W A hL hW hA ⟨25 * b + s, h⟩ p q b s (by show (25 * b + s) / 25 = b; omega)
    (by show (25 * b + s) % 25 = s; omega) (hp p) (hq q)]
  exact Iff.rfl

end Run

section Fold

/-- What the output's buffer holds after point 25·b + j (tile j of batch half b), by the universal property: a bound of
    an entry is exactly a bound of |D| over the rows of the half and the columns of the tiles 0 … j. By induction on the
    tile: the first stores -inf (the bottom) before the maximum, each later one takes the maximum over what the tile
    before left. -/
theorem run_le (c : Dev nD) (L : FVec Ideal S256x128000 .f32) (W : FVec Ideal S128000x64 .f32) (A : FVec Ideal S256x64 .f32)
    (hL : V c main_arg1 = L) (hW : V c main_arg2 = W) (hA : V c main_v0_0 = A) (b : Nat) (hb : b < 2) (z : EReal) :
    ∀ (j : Nat) (_ : j < 25) (h : 25 * b + j < cfg1.N) (y : S8x128.Idx),
      outsAt1 V c (25 * b + j) h y ≤ z
        ↔ ∀ (r : Fin 256) (v : Fin 128000), r.val / 128 = b → v.val / 5120 ≤ j → absD A W L r v ≤ z
  | 0, hj, h, y => by
    have hA' := outsAt1_A V c ⟨25 * b + 0, h⟩ (by show (25 * b + 0) % 25 = 0; omega)
    rw [out_A] at hA'
    refine Iff.trans (iff_of_eq (congrArg (· ≤ z) (congrFun hA' y))) ?_
    refine (pay2_le _ _ _ _ y z).trans ?_
    rw [blocks_le V c L W A hL hW hA b 0 hb hj h z]
    constructor
    · rintro ⟨-, h2⟩ r v hr hv; exact h2 r v hr (by omega)
    · intro h'
      refine ⟨?_, fun r v hr hv => h' r v hr (by omega)⟩
      show Ideal.ofBits .f32 0xFF800000#32 ≤ z
      rw [ofBits_neg_inf]; exact bot_le
  | j + 1, hj, h, y => by
    have hB := outsAt1_B V c ⟨25 * b + (j + 1), h⟩ (by show ¬(25 * b + (j + 1)) % 25 = 0; omega)
    rw [out_B] at hB
    have hprev := outs_congr V c (show (⟨25 * b + (j + 1), h⟩ : Fin cfg1.N).val - 1 = 25 * b + j from by
      show 25 * b + (j + 1) - 1 = 25 * b + j; omega) (Nat.lt_of_le_of_lt (Nat.sub_le _ _) (⟨25 * b + (j + 1), h⟩ : Fin cfg1.N).isLt)
      (Nat.lt_of_succ_lt h)
    rw [hprev] at hB
    refine Iff.trans (iff_of_eq (congrArg (· ≤ z) (congrFun hB y))) ?_
    refine (pay2_le _ _ _ _ y z).trans ?_
    rw [blocks_le V c L W A hL hW hA b (j + 1) hb hj h z,
      run_le c L W A hL hW hA b hb z j (Nat.lt_of_succ_lt hj) (Nat.lt_of_succ_lt h) y]
    constructor
    · rintro ⟨h1, h2⟩ r v hr hv
      by_cases hv' : v.val / 5120 ≤ j
      · exact h1 r v hr hv'
      · exact h2 r v hr (by omega)
    · intro h'
      exact ⟨fun r v hr hv => h' r v hr (by omega), fun r v hr hv => h' r v hr (by omega)⟩

end Fold

section Final

/-- The output window's blocks are never cut: [8, 128] at every point. -/
theorem xs_3 : ∀ t : Fin cfg1.N, win1_3.xsize (grid1.coords t) 0 = 8 ∧ win1_3.xsize (grid1.coords t) 1 = 128 :=
  (by decide +kernel : ∀ t : Fin grid1.N, win1_3.xsize (grid1.coords t) 0 = 8 ∧ win1_3.xsize (grid1.coords t) 1 = 128)

/-- Every entry of the [16, 128] array after the region, by the universal property: entry (i₀, i₁) lies in block i₀ / 8,
    written back after the last tile of that batch half, and a bound of it is a bound of |D| over the rows of the half
    and all columns. -/
theorem final_le (c : Dev nD) (L : FVec Ideal S256x128000 .f32) (W : FVec Ideal S128000x64 .f32) (A : FVec Ideal S256x64 .f32)
    (hL : V c main_arg1 = L) (hW : V c main_arg2 = W) (hA : V c main_v0_0 = A) (M : FVec Ideal S16x128 .f32) (hM : (dat1 V c).arrAt 3 cfg1.N = M) (z : EReal) (i : S16x128.Idx) :
    M i ≤ z ↔ ∀ (r : Fin 256) (v : Fin 128000), r.val / 128 = (i 0).val / 8 → absD A W L r v ≤ z := by
  subst hM
  have hN : cfg1.N = 50 := N_1
  refine (dat1 V c).arrAt_forall_of_cover 3
    (fun (i : S16x128.Idx) (x : EReal) =>
      x ≤ z ↔ ∀ (r : Fin 256) (v : Fin 128000), r.val / 128 = (i 0).val / 8 → absD A W L r v ≤ z)
    (fun t hf y => ?_) (fun i => ?_) i
  · have h24 : t.val % 25 = 24 := (flush1_3 t).mp hf
    have hlt : t.val < 50 := lt_of_lt_of_eq t.isLt hN
    have he0 : ((((cfg1.win 3).blk t).view.emb y) 0).val = win1_3.index t 0 * 8 + (y 0).val := by
      show ((((View.whole main_v2).slice (win1_3.rect t)).emb y) 0).val = _
      rw [View.emb_slice, Function.Embedding.trans_apply, View.emb_whole, Function.Embedding.refl_apply]
      exact win1_3.rect_emb_val t y 0
    have hy0 : (y 0).val < 8 := lt_of_lt_of_eq (y 0).isLt (xs_3 t).1
    show outsAt1 V c t.val t.isLt (win1_3.xinj (grid1.coords t) y) ≤ z
      ↔ ∀ (r : Fin 256) (v : Fin 128000), r.val / 128 = ((((cfg1.win 3).blk t).view.emb y) 0).val / 8 → absD A W L r v ≤ z
    rw [he0, (idx_3 t).1, outs_congr V c (show t.val = 25 * (t.val / 25) + 24 by omega) t.isLt (by rw [hN]; omega),
      run_le V c L W A hL hW hA (t.val / 25) (by omega) z 24 (by decide) _ _,
      show (t.val / 25 * 8 + (y 0).val) / 8 = t.val / 25 by omega]
    exact forall₂_congr fun r v => ⟨fun h hr => h hr (by have := v.isLt; omega), fun h hr _ => h hr⟩
  · have hi0 : (i 0 : Nat) < 16 := (i 0).isLt
    have hi1 : (i 1 : Nat) < 128 := (i 1).isLt
    have ht : 25 * ((i 0 : Nat) / 8) + 24 < cfg1.N := by rw [hN]; omega
    refine ⟨⟨25 * ((i 0 : Nat) / 8) + 24, ht⟩,
      (flush1_3 _).mpr (by show (25 * ((i 0 : Nat) / 8) + 24) % 25 = 24; omega), ?_⟩
    generalize htt : (⟨25 * ((i 0 : Nat) / 8) + 24, ht⟩ : Fin cfg1.N) = t
    have htv : t.val = 25 * ((i 0 : Nat) / 8) + 24 := by rw [← htt]
    show i ∈ ((View.whole main_v2).slice (win1_3.rect t)).set
    rw [View.set_slice_whole, Rect.mem_set_unit]
    intro a
    match a with
    | ⟨0, _⟩ =>
      show win1_3.index t 0 * 8 ≤ (i 0 : Nat) ∧ (i 0 : Nat) < win1_3.index t 0 * 8 + win1_3.xsize (grid1.coords t) 0
      rw [(idx_3 t).1, (xs_3 t).1]
      omega
    | ⟨1, _⟩ =>
      show win1_3.index t 1 * 128 ≤ (i 1 : Nat) ∧ (i 1 : Nat) < win1_3.index t 1 * 128 + win1_3.xsize (grid1.coords t) 1
      rw [(idx_3 t).2, (xs_3 t).2]
      omega

end Final

/-- The [16, 128] array after the region, by the universal property of a maximum: a bound of all its entries is
    exactly a bound of all |D(r, v)|, D(r, v) = (Σ_k A(r, k) · W(v, k)) − L(r, v). -/
theorem maxlp_final (c : Dev nD) (L : FVec Ideal S256x128000 .f32) (W : FVec Ideal S128000x64 .f32) (A : FVec Ideal S256x64 .f32)
    (M : FVec Ideal S16x128 .f32)
    (hL : V c main_arg1 = L) (hW : V c main_arg2 = W) (hA : V c main_v0_0 = A) (hM : (dat1 V c).arrAt 3 cfg1.N = M) (z : EReal) :
    (∀ y : S16x128.Idx, M y ≤ z)
      ↔ ∀ (r : Fin 256) (v : Fin 128000),
          max ((∑ k : Fin 64, A (ix2 r k) * W (ix2 v k)) - L (ix2 r v)) (-((∑ k : Fin 64, A (ix2 r k) * W (ix2 v k)) - L (ix2 r v))) ≤ z := by
  constructor
  · intro h r v
    have hr : r.val < 256 := r.isLt
    exact (final_le V c L W A hL hW hA M hM z (ix2 (⟨8 * (r.val / 128), by omega⟩ : Fin 16) (0 : Fin 128))).mp (h _) r v
      (by show r.val / 128 = 8 * (r.val / 128) / 8; omega)
  · intro h y
    exact (final_le V c L W A hL hW hA M hM z y).mpr fun r v _ => h r v

end Cert.KernelIdeal.Region1

end
-- ==== Proof.KernelValue.lean ====
/-
  The idealized kernel's result, in closed form: the contents of the result array at the last boundary of the run
  are the reference's last stage of the two launch arrays. The third region's array is its one whole-array function
  of what that region is entered with (the first region's [256, 64] product, the launch arrays, the two host maxima);
  the first two regions' arrays have the properties the bridge asks for.
-/
import proofs.«149240_j54838142435803_2_alg».proof.Proof.Bridge
import proofs.«149240_j54838142435803_2_alg».proof.Proof.Fold
import proofs.«149240_j54838142435803_2_alg».proof.Proof.Region0
import proofs.«149240_j54838142435803_2_alg».proof.Proof.Region1

noncomputable section

namespace Cert.KernelIdeal.Final

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The result array at the return is the reference's function of the launch arrays. -/
theorem result_eq (c : Dev nD) :
    W5 m ρ c (Proc.devRef .tc main_v6)
      = Cert.ReferenceIdeal.Read.val_main_v15 (F := Ideal) (m ((c : Thread nD τ).loc main_arg1)) (m ((c : Thread nD τ).loc main_arg2)) := by
  rw [show W5 m ρ c (Proc.devRef .tc main_v6) = (dat2 (V4 m ρ) c).arrAt 5 cfg2.N from W5_arr m ρ c 5]
  rw [Cert.KernelIdeal.Region2.final (V4 m ρ) c _ _ _ _ _ (Cert.KernelIdeal.Fold.V4_arg1 m ρ c) (Cert.KernelIdeal.Fold.V4_arg2 m ρ c)
    (Cert.KernelIdeal.Fold.V4_v0_0 m ρ c) (Cert.KernelIdeal.Fold.V4_v4 m ρ c) (Cert.KernelIdeal.Fold.V4_v5 m ρ c)]
  exact Cert.KernelIdeal.Bridge.G_eq _ _ _ _ _
    (fun r k => Cert.KernelIdeal.Region0.lw_final (V0 m ρ) c _ _ _ rfl rfl rfl r k)
    (fun z => Cert.KernelIdeal.Region0.maxlog_final (V0 m ρ) c _ _ rfl rfl z)
    (fun z => Cert.KernelIdeal.Region1.maxlp_final (V2 m ρ) c _ _ _ _ (Cert.KernelIdeal.Fold.V2_arg1 m ρ c)
      (Cert.KernelIdeal.Fold.V2_arg2 m ρ c) (Cert.KernelIdeal.Fold.V2_v0_0 m ρ c) rfl z)

end Cert.KernelIdeal.Final

end
-- ==== Proof.lean ====
/-
  The certificate of the three-pass kernel against its reference.
  Both programs compute, from L : [256, 128000] and W : [128000, 64] (the integer argument is unused),
      D = (L·W)·Wᵀ − L,   s = max|L| / max(max|D|, ε),   result = D·s + c·(L − D·s),
  ε and c the same two literals on both sides. The kernel does it in three pallas_calls: the first accumulates
  L·W over 25 vocabulary tiles per batch half and tracks max|L|; the second recomputes D tile by tile and tracks
  max|D|; the third recomputes D once more and writes the blend. Over the extended reals a change of float format is
  the identity, so the only differences are the grouping of the sum over the 128000 columns and of the two maxima:
  commutativity and associativity of + and of max, no finiteness needed.
  The frames of the two kernel programs are the generated ones; the reference's frame is its generated run with the
  result dropped; the idealization rewrote nothing; the algebraic claim pairs the kernel's run, its result array
  named by the fold of boundary contents, with the reference's run, the two results one function of the arguments.
-/
import proofs.«149240_j54838142435803_2_alg».proof.Defs
import proofs.«149240_j54838142435803_2_alg».proof.Proof.Gen.Kernel
import proofs.«149240_j54838142435803_2_alg».proof.Proof.Gen.Kernel.Frame
import proofs.«149240_j54838142435803_2_alg».proof.Proof.Gen.KernelIdeal
import proofs.«149240_j54838142435803_2_alg».proof.Proof.Gen.KernelIdeal.Frame
import proofs.«149240_j54838142435803_2_alg».proof.Proof.Gen.ReferenceIdeal
import proofs.«149240_j54838142435803_2_alg».proof.Proof.Gen.ReferenceIdeal.Run
import proofs.«149240_j54838142435803_2_alg».proof.Proof.Gen.ReferenceIdeal.Read
import proofs.«149240_j54838142435803_2_alg».proof.Proof.Gen.Pre_finite_inputs
import proofs.«149240_j54838142435803_2_alg».proof.Proof.KernelRun
import proofs.«149240_j54838142435803_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run, and end with the same result array: the kernel's is
    the reference's last stage of the kernel's arguments, the reference's is that stage of its own, which agree. -/
theorem algebraic : Cert.algebraic_KernelIdeal_ReferenceIdeal := by
  intro m ρ m' ρ' _ hagree
  refine ⟨fun c => Cert.KernelIdeal.Gen.W5 m ρ c (Proc.devRef .tc Cert.KernelIdeal.main_v6), Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).2.1, (hagree c).2.2]
  exact (Cert.KernelIdeal.Final.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
